-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S3072x1024 .f32) (main_arg2 : FVec F S1024x1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S4x16x2048x64 : Shape := ⟨4, ![4, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x3072 : Shape := ⟨2, ![512, 3072]⟩
abbrev S512x16x64 : Shape := ⟨3, ![512, 16, 64]⟩
abbrev S16x512x64 : Shape := ⟨3, ![16, 512, 64]⟩
abbrev S1x1x1024x64 : Shape := ⟨4, ![1, 1, 1024, 64]⟩
abbrev S1x1x2048x64 : Shape := ⟨4, ![1, 1, 2048, 64]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩
abbrev S1x1024 : Shape := ⟨2, ![1, 1024]⟩

abbrev nBuf : Space → Nat
  | .hbm => 12
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S3072x1024, .bf16⟩
  | .hbm, ⟨5, _⟩ => ⟨S1024x1024, .bf16⟩
  | .hbm, ⟨6, _⟩ => ⟨S4x16x2048x64, .bf16⟩
  | .hbm, ⟨7, _⟩ => ⟨S4x16x2048x64, .bf16⟩
  | .hbm, ⟨8, _⟩ => ⟨S4x16x2048x64, .bf16⟩
  | .hbm, ⟨9, _⟩ => ⟨S4x16x2048x64, .bf16⟩
  | .hbm, ⟨10, _⟩ => ⟨S1x1024, .f32⟩
  | .hbm, ⟨11, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S3072x1024, .bf16⟩
  | .local _ .vmem, ⟨3, _⟩ => ⟨S1x16x512x64, .bf16⟩
  | .local _ .vmem, ⟨4, _⟩ => ⟨S1x16x512x64, .bf16⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x1x1024x64, .bf16⟩
  | .local _ .vmem, ⟨10, _⟩ => ⟨S1x1x1024x64, .bf16⟩
  | .local _ .vmem, ⟨11, _⟩ => ⟨S1x1x2048x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x1x2048x64, .bf16⟩
  | .local _ .vmem, ⟨15, _⟩ => ⟨S1x1x1024x64, .bf16⟩
  | .local _ .vmem, ⟨16, _⟩ => ⟨S1x1x1024x64, .bf16⟩
  | .local _ .vmem, ⟨17, _⟩ => ⟨S1x16x512x64, .bf16⟩
  | .local _ .vmem, ⟨18, _⟩ => ⟨S1x16x512x64, .bf16⟩
  | .local _ .vmem, ⟨19, _⟩ => ⟨S1024x1024, .bf16⟩
  | .local _ .vmem, ⟨20, _⟩ => ⟨S1x1024, .f32⟩
  | .local _ .vmem, ⟨21, _⟩ => ⟨S1x512x1024, .f32⟩
  | .local _ .vmem, ⟨22, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 16, 2], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![4, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  shapeCasts_S512x1024_S512x16x64 : S512x1024.ShapeCasts S512x16x64
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1x1024x64 : S1024x64.ShapeCasts S1x1x1024x64
  packedbf16_S1x1x1024x64_S1x1x1024x64_0_0_0_0 : (Rect.unit (s := S1x1x1024x64) ![0, 0, 0, 0] S1x1x1024x64.size inb_S1x1x1024x64_S1x1x1024x64_0_0_0_0).PackedRows (EltTy.packing .bf16)
  shapeCasts_S1024_S1x1024 : S1024.ShapeCasts S1x1024
  transposes_S16x512x64_p1_0_2_S512x16x64 : S16x512x64.Transposes [1, 0, 2] S512x16x64
  shapeCasts_S512x16x64_S512x1024 : S512x16x64.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S3072x1024_S512x3072_1_1_0_0_n_n_wf : DotDims.WF S512x1024 S3072x1024 S512x3072 [1] [1] [0] [0] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512x64.size a ≤ S4x16x2048x64.size a
  hwx0_2 : ∀ i : grid0.Coords, EltTy.bits .bf16 = 32 ∨ (Rect.block (s := S4x16x2048x64) S1x16x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S4x16x2048x64.size a
  hwx0_3 : ∀ i : grid0.Coords, EltTy.bits .bf16 = 32 ∨ (Rect.block (s := S4x16x2048x64) S1x16x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S4x16x2048x64.size a
  hwx0_4 : ∀ i : grid0.Coords, EltTy.bits .bf16 = 32 ∨ (Rect.block (s := S4x16x2048x64) S1x16x512x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S4x16x2048x64.size a
  hwx1_0 : ∀ i : grid1.Coords, EltTy.bits .bf16 = 32 ∨ (Rect.block (s := S4x16x2048x64) S1x1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S4x16x2048x64.size a
  hwx1_1 : ∀ i : grid1.Coords, EltTy.bits .bf16 = 32 ∨ (Rect.block (s := S4x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S4x16x2048x64.size a
  hwx1_2 : ∀ i : grid1.Coords, EltTy.bits .bf16 = 32 ∨ (Rect.block (s := S4x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024x64.size a ≤ S4x16x2048x64.size a
  hwx1_3 : ∀ i : grid1.Coords, EltTy.bits .bf16 = 32 ∨ (Rect.block (s := S4x16x2048x64) S1x1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512x64.size a ≤ S4x16x2048x64.size a
  hwx2_0 : ∀ i : grid2.Coords, EltTy.bits .bf16 = 32 ∨ (Rect.block (s := S4x16x2048x64) S1x16x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S4x2048x1024.size a
  hwx2_3 : ∀ i : grid2.Coords, EltTy.bits .f32 = 32 ∨ (Rect.block (s := S4x2048x1024) S1x512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x16x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1x16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x3072, .f32⟩
  | .hbm, ⟨5, _⟩ => ⟨S4x2048x3x16x64, .f32⟩
  | .hbm, ⟨6, _⟩ => ⟨S3x4x16x2048x64, .f32⟩
  | .hbm, ⟨7, _⟩ => ⟨S1x4x16x2048x64, .f32⟩
  | .hbm, ⟨8, _⟩ => ⟨S4x16x2048x64, .f32⟩
  | .hbm, ⟨9, _⟩ => ⟨S_, .f32⟩
  | .hbm, ⟨10, _⟩ => ⟨S4x16x2048x64, .f32⟩
  | .hbm, ⟨11, _⟩ => ⟨S4x16x2048x64, .f32⟩
  | .hbm, ⟨12, _⟩ => ⟨S1x4x16x2048x64, .f32⟩
  | .hbm, ⟨13, _⟩ => ⟨S4x16x2048x64, .f32⟩
  | .hbm, ⟨14, _⟩ => ⟨S1x4x16x2048x64, .f32⟩
  | .hbm, ⟨15, _⟩ => ⟨S4x16x2048x64, .f32⟩
  | .hbm, ⟨16, _⟩ => ⟨S4x16x2048x2048, .f32⟩
  | .hbm, ⟨17, _⟩ => ⟨S_, .f32⟩
  | .hbm, ⟨18, _⟩ => ⟨S4x16x2048, .f32⟩
  | .hbm, ⟨19, _⟩ => ⟨S_, .f32⟩
  | .hbm, ⟨20, _⟩ => ⟨S4x16x2048, .f32⟩
  | .hbm, ⟨21, _⟩ => ⟨S4x16x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S_, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x64, .f32⟩
  | .hbm, ⟨32, _⟩ => ⟨S4x2048x16x64, .f32⟩
  | .hbm, ⟨33, _⟩ => ⟨S4x2048x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  bcast_S_S4x16x2048x64 : S_.BroadcastsInDim S4x16x2048x64 (![] : Fin 0 → Fin S4x16x2048x64.rank)
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KRun.lean ====
/-
  The kernel program's run with its result named. Every weakly fair execution of the three launches and the host
  operations between them terminates without a fault; at the end each unscoped buffer holds what the fold of the
  segments leaves in it, so the result array holds the fold's value at its buffer, and the four argument arrays hold
  what they held at launch.
-/
import proofs.«124630_j25434796327784_2_alg».proof.Proof.Gen.KernelIdeal.Frame

set_option maxRecDepth 16384

noncomputable section

namespace Cert.KernelIdeal.AttnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's five segments, the last thread state read against the final state: the result
    buffer at the fold's value, each argument back to its launch contents. -/
theorem run_named : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.AttnRun

end
-- ==== Proof.Spec.lean ====
/-
  Multi-head self-attention over x : [4, 2048, 1024] with 16 heads of width 64, written index by index on the extended
  reals, in the two spellings the two programs use.

  Both spellings share the projections: part s (0 = query, 1 = key, 2 = value), head h, lane d of row n of batch b is
  the dot product of row (b, n) of x with row s·1024 + h·64 + d of w_qkv.

  They differ in three places, all inside one (batch, head, query row):
    * the scale 2⁻³ multiplies the finished score (Σ_d q·k)·2⁻³ in one and each query entry Σ_d (q·2⁻³)·k in the other;
    * the row maximum is folded from −∞ in both, and one takes max(−∞, ·) of it once more;
    * the weights exp(s − m) are divided by their sum after the product with the values, (Σ_j p·v)/Σp, in one and
      before it, Σ_j (p/(0 + Σp))·v, in the other.
  The output row is the dot product of the 16 heads' rows laid side by side (column c = head c / 64, lane c % 64)
  with a row of w_proj, plus the bias.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The scale 64^(-1/2) = 2⁻³ as both programs print it. -/
def scale : EReal := Ideal.ofBits .f32 0x3E000000#32
/-- The start value of both row maxima, the word of −∞. -/
def negInf : EReal := Ideal.ofBits .f32 0xFF800000#32
/-- The start value of the reference's row sum, the word of 0. -/
def zero : EReal := Ideal.ofBits .f32 0x00000000#32

/-- Row s·1024 + h·64 + d of w_qkv: part s, head h, lane d. -/
def wrow (s : Fin 3) (h : Fin 16) (d : Fin 64) : Fin 3072 := ⟨s.val * 1024 + h.val * 64 + d.val, by omega⟩
/-- Column h·64 + d of a merged row: head h, lane d. -/
def mcol (h : Fin 16) (d : Fin 64) : Fin 1024 := ⟨h.val * 64 + d.val, by omega⟩
/-- The head of a merged column. -/
def hd (c : Fin 1024) : Fin 16 := ⟨c.val / 64, by omega⟩
/-- The lane of a merged column. -/
def ln (c : Fin 1024) : Fin 64 := ⟨c.val % 64, Nat.mod_lt _ (by decide)⟩

/-- Arrays as functions of their coordinates. -/
abbrev A3 (n0 n1 n2 : Nat) := Fin n0 → Fin n1 → Fin n2 → EReal
abbrev A4 := Fin 4 → Fin 16 → Fin 2048 → Fin 64 → EReal

/-- An array read at its coordinates. -/
def cur1 {n0 : Nat} (x : (⟨1, ![n0]⟩ : Shape).Idx → EReal) : Fin n0 → EReal := fun a => x (ix1 a)
def cur2 {n0 n1 : Nat} (x : (⟨2, ![n0, n1]⟩ : Shape).Idx → EReal) : Fin n0 → Fin n1 → EReal := fun a b => x (ix2 a b)
def cur3 {n0 n1 n2 : Nat} (x : (⟨3, ![n0, n1, n2]⟩ : Shape).Idx → EReal) : A3 n0 n1 n2 := fun a b c => x (ix3 a b c)
def cur4 (x : (⟨4, ![4, 16, 2048, 64]⟩ : Shape).Idx → EReal) : A4 := fun a b c d => x (ix4 a b c d)

/-- Part s of x · w_qkvᵀ in head layout. -/
def proj (X : A3 4 2048 1024) (Wq : Fin 3072 → Fin 1024 → EReal) (s : Fin 3) : A4 :=
  fun b h n d => ∑ c : Fin 1024, X b n c * Wq (wrow s h d) c

/-- The row maximum: the fold of max from −∞ over the 2048 keys. -/
def rowmax (f : Fin 2048 → EReal) : EReal := (Finset.univ : Finset (Fin 2048)).fold max negInf f

/-! ## Scale after the score, divide after the values -/

def scoreK (q k : A4) (b : Fin 4) (h : Fin 16) (i j : Fin 2048) : EReal :=
  (∑ d : Fin 64, q b h i d * k b h j d) * scale

def weightK (q k : A4) (b : Fin 4) (h : Fin 16) (i j : Fin 2048) : EReal :=
  Ideal.exp (scoreK q k b h i j - rowmax (scoreK q k b h i))

def attnK (q k v : A4) : A4 := fun b h i d =>
  Ideal.div (∑ j : Fin 2048, weightK q k b h i j * v b h j d) (∑ j : Fin 2048, weightK q k b h i j)

def outK (X : A3 4 2048 1024) (Wq : Fin 3072 → Fin 1024 → EReal) (Wp : Fin 1024 → Fin 1024 → EReal) (Bp : Fin 1024 → EReal) :
    A3 4 2048 1024 := fun b n o =>
  (∑ c : Fin 1024, attnK (proj X Wq 0) (proj X Wq 1) (proj X Wq 2) b (hd c) n (ln c) * Wp o c) + Bp o

/-! ## Scale the query, divide before the values -/

def scoreR (q k : A4) (b : Fin 4) (h : Fin 16) (i j : Fin 2048) : EReal :=
  ∑ d : Fin 64, (q b h i d * scale) * k b h j d

def weightR (q k : A4) (b : Fin 4) (h : Fin 16) (i j : Fin 2048) : EReal :=
  Ideal.exp (scoreR q k b h i j - max negInf (rowmax (scoreR q k b h i)))

def attnR (q k v : A4) : A4 := fun b h i d =>
  ∑ j : Fin 2048, Ideal.div (weightR q k b h i j) (zero + ∑ j' : Fin 2048, weightR q k b h i j') * v b h j d

def outR (X : A3 4 2048 1024) (Wq : Fin 3072 → Fin 1024 → EReal) (Wp : Fin 1024 → Fin 1024 → EReal) (Bp : Fin 1024 → EReal) :
    A3 4 2048 1024 := fun b n o =>
  (∑ c : Fin 1024, attnR (proj X Wq 0) (proj X Wq 1) (proj X Wq 2) b (hd c) n (ln c) * Wp o c) + Bp o

end Cert.Attn

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.KPay0.lean ====
/-
  The projection launch's body, read at an index. One block of 512 rows of x (of one batch) is multiplied with all
  3072 rows of the weights; the 512 × 3072 product is cut into its three 1024-column parts, and each part is laid out
  head by head: entry (h, r, d) of a stored block is entry (r, s·1024 + h·64 + d) of the product.
-/
import proofs.«124630_j25434796327784_2_alg».proof.Proof.Gen.KernelIdeal.Skeleton
import proofs.«124630_j25434796327784_2_alg».proof.Proof.Spec
import proofs.«124630_j25434796327784_2_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.AttnPay

open Cert.KernelIdeal Cert.KernelIdeal.Gen
open Idealize.ShloMosaic Idealize.ShloMosaic.ValueIdx

/-- The product's operand indices at output index j and contraction position q: row (j 0) of the left operand and row
    (j 1) of the right, both at column q. -/
theorem lhs0_0 (j : S512x3072.Idx) (q : dot_S512x1024_S3072x1024_S512x3072_1_1_0_0_n_n.contr.Idx) : (dot_S512x1024_S3072x1024_S512x3072_1_1_0_0_n_n.lhsIdx j q 0).val = (j 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs0_1 (j : S512x3072.Idx) (q : dot_S512x1024_S3072x1024_S512x3072_1_1_0_0_n_n.contr.Idx) : (dot_S512x1024_S3072x1024_S512x3072_1_1_0_0_n_n.lhsIdx j q 1).val = (q ⟨0, by decide⟩).val :=
  dot_S512x1024_S3072x1024_S512x3072_1_1_0_0_n_n.lhsIdx_val_of_single rfl j q
theorem rhs0_0 (j : S512x3072.Idx) (q : dot_S512x1024_S3072x1024_S512x3072_1_1_0_0_n_n.contr.Idx) : (dot_S512x1024_S3072x1024_S512x3072_1_1_0_0_n_n.rhsIdx j q 0).val = (j 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs0_1 (j : S512x3072.Idx) (q : dot_S512x1024_S3072x1024_S512x3072_1_1_0_0_n_n.contr.Idx) : (dot_S512x1024_S3072x1024_S512x3072_1_1_0_0_n_n.rhsIdx j q 1).val = (q ⟨0, by decide⟩).val :=
  dot_S512x1024_S3072x1024_S512x3072_1_1_0_0_n_n.rhsIdx_val_of_single rfl j q

/-- Entry (r, o) of the block's product: the dot product of row r of the x block with row o of the weights. -/
theorem proj_block (x0 : Vec Ideal S1x512x1024 .f32) (w : Vec Ideal S3072x1024 .bf16) (r : Fin 512) (o : Fin 3072) :
    k0_pay1 (F := Ideal) x0 w (ix2 r o) = ∑ c : Fin 1024, x0 (ix3 (0 : Fin 1) r c) * w (ix2 o c) := by
  unfold k0_pay1
  refine (Cert.LibMatmul.matmul_zero_sum1 dot_S512x1024_S3072x1024_S512x3072_1_1_0_0_n_n none 1024 rfl rfl _ _ (ix2 r o)
    (fun c => ix2 r c) (fun c => ix2 o c) ?_ ?_).trans ?_
  · intro q k hk
    funext a; apply Fin.ext
    match a with
    | ⟨0, _⟩ => exact lhs0_0 _ _
    | ⟨1, _⟩ => exact (lhs0_1 _ _).trans hk
  · intro q k hk
    funext a; apply Fin.ext
    match a with
    | ⟨0, _⟩ => exact rhs0_0 _ _
    | ⟨1, _⟩ => exact (rhs0_1 _ _).trans hk
  · refine Finset.sum_congr rfl fun c _ => ?_
    have e1 : shapeCast S512x1024 x0 shapeCasts_S1x512x1024_S512x1024 (ix2 r c) = x0 (ix3 (0 : Fin 1) r c) :=
      shapeCast_apply _ _ _ _ (by
        rw [Shape.rowMajor_val_three, Shape.rowMajor_val_two]
        show ((0 : ℕ) * 512 + r.val) * 1024 + c.val = r.val * 1024 + c.val
        omega)
    have e2 : shapeCast S3072x1024 w shapeCasts_S3072x1024_S3072x1024 (ix2 o c) = w (ix2 o c) := by
      rw [shapeCast_self]
    show shapeCast S512x1024 x0 shapeCasts_S1x512x1024_S512x1024 (ix2 r c) * shapeCast S3072x1024 w shapeCasts_S3072x1024_S3072x1024 (ix2 o c) = _
    rw [e1, e2]

/-- Part 0 of the block: head h, row r, lane d of the stored block is the dot product of row r of the x block with
    row 0 + h·64 + d of the weights. -/
theorem pay2_apply (x0 : Vec Ideal S1x512x1024 .f32) (w : Vec Ideal S3072x1024 .bf16) (h : Fin 16) (r : Fin 512) (d : Fin 64) :
    k0_pay2 (F := Ideal) x0 w (ix4 (0 : Fin 1) h r d) = ∑ c : Fin 1024, x0 (ix3 (0 : Fin 1) r c) * w (ix2 (Cert.Attn.wrow 0 h d) c) := by
  have hh : h.val < 16 := h.isLt
  have hr : r.val < 512 := r.isLt
  have hd : d.val < 64 := d.isLt
  unfold k0_pay2
  -- [1,16,512,64] at (0,h,r,d) reads [16,512,64] at (h,r,d)
  refine (shapeCast_apply _ _ _ (ix3 h r d)
    (by rw [Shape.rowMajor_val_three, Shape.rowMajor_val_four]
        show (h.val * 512 + r.val) * 64 + d.val = (((0 : ℕ) * 16 + h.val) * 512 + r.val) * 64 + d.val
        omega)).trans ?_
  -- the transpose [1,0,2]: (h,r,d) reads (r,h,d)
  refine (transpose_apply _ _ _ _ (ix3 r h d)
    (fun b => match b with | ⟨0, _⟩ => rfl | ⟨1, _⟩ => rfl | ⟨2, _⟩ => rfl)).trans ?_
  -- [512,16,64] at (r,h,d) reads [512,1024] at (r, h·64+d)
  refine (shapeCast_apply _ _ _ (ix2 r (Cert.Attn.mcol h d))
    (by rw [Shape.rowMajor_val_two, Shape.rowMajor_val_three]
        show r.val * 1024 + (h.val * 64 + d.val) = (r.val * 16 + h.val) * 64 + d.val
        omega)).trans ?_
  -- the format change is the identity; the slice at column 0 reads the product at column 0 + h·64+d
  show extractStridedSlice S512x1024 ![0, 0] (k0_pay1 x0 w) slices_S512x3072_o0_0_S512x1024 (ix2 r (Cert.Attn.mcol h d)) = _
  refine (extractStridedSlice_apply _ _ _ _ (ix2 r (Cert.Attn.wrow 0 h d))
    (fun a => match a with
      | ⟨0, _⟩ => by show r.val = 0 + r.val; omega
      | ⟨1, _⟩ => by show (0 : ℕ) * 1024 + h.val * 64 + d.val = 0 + (h.val * 64 + d.val); omega)).trans ?_
  exact proj_block x0 w r (Cert.Attn.wrow 0 h d)

/-- Part 1 of the block: head h, row r, lane d of the stored block is the dot product of row r of the x block with
    row 1024 + h·64 + d of the weights. -/
theorem pay3_apply (x0 : Vec Ideal S1x512x1024 .f32) (w : Vec Ideal S3072x1024 .bf16) (h : Fin 16) (r : Fin 512) (d : Fin 64) :
    k0_pay3 (F := Ideal) x0 w (ix4 (0 : Fin 1) h r d) = ∑ c : Fin 1024, x0 (ix3 (0 : Fin 1) r c) * w (ix2 (Cert.Attn.wrow 1 h d) c) := by
  have hh : h.val < 16 := h.isLt
  have hr : r.val < 512 := r.isLt
  have hd : d.val < 64 := d.isLt
  unfold k0_pay3
  -- [1,16,512,64] at (0,h,r,d) reads [16,512,64] at (h,r,d)
  refine (shapeCast_apply _ _ _ (ix3 h r d)
    (by rw [Shape.rowMajor_val_three, Shape.rowMajor_val_four]
        show (h.val * 512 + r.val) * 64 + d.val = (((0 : ℕ) * 16 + h.val) * 512 + r.val) * 64 + d.val
        omega)).trans ?_
  -- the transpose [1,0,2]: (h,r,d) reads (r,h,d)
  refine (transpose_apply _ _ _ _ (ix3 r h d)
    (fun b => match b with | ⟨0, _⟩ => rfl | ⟨1, _⟩ => rfl | ⟨2, _⟩ => rfl)).trans ?_
  -- [512,16,64] at (r,h,d) reads [512,1024] at (r, h·64+d)
  refine (shapeCast_apply _ _ _ (ix2 r (Cert.Attn.mcol h d))
    (by rw [Shape.rowMajor_val_two, Shape.rowMajor_val_three]
        show r.val * 1024 + (h.val * 64 + d.val) = (r.val * 16 + h.val) * 64 + d.val
        omega)).trans ?_
  -- the format change is the identity; the slice at column 1024 reads the product at column 1024 + h·64+d
  show extractStridedSlice S512x1024 ![0, 1024] (k0_pay1 x0 w) slices_S512x3072_o0_1024_S512x1024 (ix2 r (Cert.Attn.mcol h d)) = _
  refine (extractStridedSlice_apply _ _ _ _ (ix2 r (Cert.Attn.wrow 1 h d))
    (fun a => match a with
      | ⟨0, _⟩ => by show r.val = 0 + r.val; omega
      | ⟨1, _⟩ => by show (1 : ℕ) * 1024 + h.val * 64 + d.val = 1024 + (h.val * 64 + d.val); omega)).trans ?_
  exact proj_block x0 w r (Cert.Attn.wrow 1 h d)

/-- Part 2 of the block: head h, row r, lane d of the stored block is the dot product of row r of the x block with
    row 2048 + h·64 + d of the weights. -/
theorem pay4_apply (x0 : Vec Ideal S1x512x1024 .f32) (w : Vec Ideal S3072x1024 .bf16) (h : Fin 16) (r : Fin 512) (d : Fin 64) :
    k0_pay4 (F := Ideal) x0 w (ix4 (0 : Fin 1) h r d) = ∑ c : Fin 1024, x0 (ix3 (0 : Fin 1) r c) * w (ix2 (Cert.Attn.wrow 2 h d) c) := by
  have hh : h.val < 16 := h.isLt
  have hr : r.val < 512 := r.isLt
  have hd : d.val < 64 := d.isLt
  unfold k0_pay4
  -- [1,16,512,64] at (0,h,r,d) reads [16,512,64] at (h,r,d)
  refine (shapeCast_apply _ _ _ (ix3 h r d)
    (by rw [Shape.rowMajor_val_three, Shape.rowMajor_val_four]
        show (h.val * 512 + r.val) * 64 + d.val = (((0 : ℕ) * 16 + h.val) * 512 + r.val) * 64 + d.val
        omega)).trans ?_
  -- the transpose [1,0,2]: (h,r,d) reads (r,h,d)
  refine (transpose_apply _ _ _ _ (ix3 r h d)
    (fun b => match b with | ⟨0, _⟩ => rfl | ⟨1, _⟩ => rfl | ⟨2, _⟩ => rfl)).trans ?_
  -- [512,16,64] at (r,h,d) reads [512,1024] at (r, h·64+d)
  refine (shapeCast_apply _ _ _ (ix2 r (Cert.Attn.mcol h d))
    (by rw [Shape.rowMajor_val_two, Shape.rowMajor_val_three]
        show r.val * 1024 + (h.val * 64 + d.val) = (r.val * 16 + h.val) * 64 + d.val
        omega)).trans ?_
  -- the format change is the identity; the slice at column 2048 reads the product at column 2048 + h·64+d
  show extractStridedSlice S512x1024 ![0, 2048] (k0_pay1 x0 w) slices_S512x3072_o0_2048_S512x1024 (ix2 r (Cert.Attn.mcol h d)) = _
  refine (extractStridedSlice_apply _ _ _ _ (ix2 r (Cert.Attn.wrow 2 h d))
    (fun a => match a with
      | ⟨0, _⟩ => by show r.val = 0 + r.val; omega
      | ⟨1, _⟩ => by show (2 : ℕ) * 1024 + h.val * 64 + d.val = 2048 + (h.val * 64 + d.val); omega)).trans ?_
  exact proj_block x0 w r (Cert.Attn.wrow 2 h d)

end Cert.KernelIdeal.AttnPay

end
-- ==== Proof.KVal0.lean ====
/-
  The projection launch, from blocks to arrays. The grid is (batch, row block of 512): point t reads rows
  [512·n, 512·n + 512) of batch b of x and the whole weights, and writes the block (b, all heads, the same rows, all
  lanes) of each of the three outputs. The blocks tile each output, so after the launch output s is part s of the
  projection of the arrays the launch found, index by index.
-/
import proofs.«124630_j25434796327784_2_alg».proof.Proof.Gen.KernelIdeal.Frame
import proofs.«124630_j25434796327784_2_alg».proof.Proof.KPay0
import proofs.«124630_j25434796327784_2_alg».proof.Proof.Spec
import Idealize.ShloMosaic.Lib.Pipeline.Value
import Idealize.ShloMosaic.Lib.ValueIdx

set_option maxRecDepth 16384

noncomputable section

namespace Cert.KernelIdeal.AttnVal0

open Cert.KernelIdeal Cert.KernelIdeal.Gen Cert.KernelIdeal.AttnPay
open Idealize.ShloMosaic Idealize.ShloMosaic.TcCoe Idealize.ShloMosaic.ValueIdx
open Idealize.SL Idealize.SL.Sem
open Idealize.ShloMosaic.Pipeline (Dat Cfg Window)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- Part s of the projection as an array in head layout. -/
abbrev projArr (x : S4x2048x1024.Idx → EReal) (w : S3072x1024.Idx → EReal) (s : Fin 3) : S4x16x2048x64.Idx → EReal :=
  fun y => Cert.Attn.proj (Cert.Attn.cur3 x) (Cert.Attn.cur2 w) s (y 0) (y 1) (y 2) (y 3)

/-- The printed index maps, decided over the 16 grid points: the x block moves with the output block (batch, row block),
    the weights' block is the whole array, and the output's head and lane blocks are the whole axes. -/
theorem idx_facts0_2 : ∀ t : Fin cfg0.N,
    win0_0.index t (0 : Fin 3) = win0_2.index t (0 : Fin 4) ∧ win0_0.index t (1 : Fin 3) = win0_2.index t (2 : Fin 4) ∧ win0_0.index t (2 : Fin 3) = 0
    ∧ win0_1.index t (0 : Fin 2) = 0 ∧ win0_1.index t (1 : Fin 2) = 0
    ∧ win0_2.index t (1 : Fin 4) = 0 ∧ win0_2.index t (3 : Fin 4) = 0
    ∧ win0_2.index t (0 : Fin 4) ≤ 3 ∧ win0_2.index t (2 : Fin 4) ≤ 3 :=
  (by decide +kernel : ∀ t : Fin grid0.N, _)

/-- Every (batch, row block) is some point's. -/
theorem idx_onto0_2 : ∀ (q0 : Fin 4) (q2 : Fin 4), ∃ t : Fin cfg0.N, win0_2.index t = ![q0.val, 0, q2.val, 0] :=
  (by decide +kernel : ∀ (q0 : Fin 4) (q2 : Fin 4), ∃ t : Fin grid0.N, win0_2.index t = ![q0.val, 0, q2.val, 0])

/-- The stored block at any of its indices, by the index's coordinates. -/
theorem pay2_at (x0 : Vec Ideal S1x512x1024 .f32) (w : Vec Ideal S3072x1024 .bf16) (j : S1x16x512x64.Idx) :
    k0_pay2 (F := Ideal) x0 w j = ∑ c : Fin 1024, x0 (ix3 (0 : Fin 1) (j 2) c) * w (ix2 (Cert.Attn.wrow 0 (j 1) (j 3)) c) := by
  have e : j = ix4 (0 : Fin 1) (j 1) (j 2) (j 3) := funext fun a => match a with
    | ⟨0, _⟩ => Fin.ext (by have h0 : (j 0).val < 1 := (j 0).isLt; show (j 0).val = 0; omega) | ⟨1, _⟩ => rfl | ⟨2, _⟩ => rfl | ⟨3, _⟩ => rfl
  exact (congrArg (k0_pay2 (F := Ideal) x0 w) e).trans (pay2_apply x0 w (j 1) (j 2) (j 3))

/-- The printed index maps, decided over the 16 grid points: the x block moves with the output block (batch, row block),
    the weights' block is the whole array, and the output's head and lane blocks are the whole axes. -/
theorem idx_facts0_3 : ∀ t : Fin cfg0.N,
    win0_0.index t (0 : Fin 3) = win0_3.index t (0 : Fin 4) ∧ win0_0.index t (1 : Fin 3) = win0_3.index t (2 : Fin 4) ∧ win0_0.index t (2 : Fin 3) = 0
    ∧ win0_1.index t (0 : Fin 2) = 0 ∧ win0_1.index t (1 : Fin 2) = 0
    ∧ win0_3.index t (1 : Fin 4) = 0 ∧ win0_3.index t (3 : Fin 4) = 0
    ∧ win0_3.index t (0 : Fin 4) ≤ 3 ∧ win0_3.index t (2 : Fin 4) ≤ 3 :=
  (by decide +kernel : ∀ t : Fin grid0.N, _)

/-- Every (batch, row block) is some point's. -/
theorem idx_onto0_3 : ∀ (q0 : Fin 4) (q2 : Fin 4), ∃ t : Fin cfg0.N, win0_3.index t = ![q0.val, 0, q2.val, 0] :=
  (by decide +kernel : ∀ (q0 : Fin 4) (q2 : Fin 4), ∃ t : Fin grid0.N, win0_3.index t = ![q0.val, 0, q2.val, 0])

/-- The stored block at any of its indices, by the index's coordinates. -/
theorem pay3_at (x0 : Vec Ideal S1x512x1024 .f32) (w : Vec Ideal S3072x1024 .bf16) (j : S1x16x512x64.Idx) :
    k0_pay3 (F := Ideal) x0 w j = ∑ c : Fin 1024, x0 (ix3 (0 : Fin 1) (j 2) c) * w (ix2 (Cert.Attn.wrow 1 (j 1) (j 3)) c) := by
  have e : j = ix4 (0 : Fin 1) (j 1) (j 2) (j 3) := funext fun a => match a with
    | ⟨0, _⟩ => Fin.ext (by have h0 : (j 0).val < 1 := (j 0).isLt; show (j 0).val = 0; omega) | ⟨1, _⟩ => rfl | ⟨2, _⟩ => rfl | ⟨3, _⟩ => rfl
  exact (congrArg (k0_pay3 (F := Ideal) x0 w) e).trans (pay3_apply x0 w (j 1) (j 2) (j 3))

/-- The printed index maps, decided over the 16 grid points: the x block moves with the output block (batch, row block),
    the weights' block is the whole array, and the output's head and lane blocks are the whole axes. -/
theorem idx_facts0_4 : ∀ t : Fin cfg0.N,
    win0_0.index t (0 : Fin 3) = win0_4.index t (0 : Fin 4) ∧ win0_0.index t (1 : Fin 3) = win0_4.index t (2 : Fin 4) ∧ win0_0.index t (2 : Fin 3) = 0
    ∧ win0_1.index t (0 : Fin 2) = 0 ∧ win0_1.index t (1 : Fin 2) = 0
    ∧ win0_4.index t (1 : Fin 4) = 0 ∧ win0_4.index t (3 : Fin 4) = 0
    ∧ win0_4.index t (0 : Fin 4) ≤ 3 ∧ win0_4.index t (2 : Fin 4) ≤ 3 :=
  (by decide +kernel : ∀ t : Fin grid0.N, _)

/-- Every (batch, row block) is some point's. -/
theorem idx_onto0_4 : ∀ (q0 : Fin 4) (q2 : Fin 4), ∃ t : Fin cfg0.N, win0_4.index t = ![q0.val, 0, q2.val, 0] :=
  (by decide +kernel : ∀ (q0 : Fin 4) (q2 : Fin 4), ∃ t : Fin grid0.N, win0_4.index t = ![q0.val, 0, q2.val, 0])

/-- The stored block at any of its indices, by the index's coordinates. -/
theorem pay4_at (x0 : Vec Ideal S1x512x1024 .f32) (w : Vec Ideal S3072x1024 .bf16) (j : S1x16x512x64.Idx) :
    k0_pay4 (F := Ideal) x0 w j = ∑ c : Fin 1024, x0 (ix3 (0 : Fin 1) (j 2) c) * w (ix2 (Cert.Attn.wrow 2 (j 1) (j 3)) c) := by
  have e : j = ix4 (0 : Fin 1) (j 1) (j 2) (j 3) := funext fun a => match a with
    | ⟨0, _⟩ => Fin.ext (by have h0 : (j 0).val < 1 := (j 0).isLt; show (j 0).val = 0; omega) | ⟨1, _⟩ => rfl | ⟨2, _⟩ => rfl | ⟨3, _⟩ => rfl
  exact (congrArg (k0_pay4 (F := Ideal) x0 w) e).trans (pay4_apply x0 w (j 1) (j 2) (j 3))

variable (V : (c : Dev nD) → (b : Ref sig .tc) → Buf (Elt Ideal) ((c : Thread nD τ).loc b))

/-! ## Output window 2: part 0 -/

/-- What grid point t writes back through window 2 is block t of part 0 of the projection of the arrays the launch finds. -/
theorem flushed0_2 (c : Dev nD) (t : Fin cfg0.N) :
    (dat0 V c).flushed 2 t = ((cfg0.win 2).blk t).view.read (Elt Ideal) (projArr (V c main_arg0) (V c main_v0) 0) := by
  show (cfg0.win 2).cut (grid0.coords t) ((dat0 V c).after 2 t) = _
  rw [after0_2]
  unfold out0_2
  rw [View.canon_unit_zero hz4]
  simp only [View.ld_unit_zero (S := S1x512x1024) hz3, View.ld_unit_zero (S := S3072x1024) hz2]
  obtain ⟨e0, e1, e2, e3, e4, e5, e6, e7, e8⟩ := idx_facts0_2 t
  funext j
  show k0_pay2 (iblk0 V c 0 t) (iblk0 V c 1 t) j = projArr (V c main_arg0) (V c main_v0) 0 (((cfg0.win 2).blk t).view.emb j)
  have hj0 : (j 0).val < 1 := (j 0).isLt
  have hj1 : (j 1).val < 16 := (j 1).isLt
  have hj2 : (j 2).val < 512 := (j 2).isLt
  have hj3 : (j 3).val < 64 := (j 3).isLt
  refine (pay2_at _ _ j).trans ?_
  refine Finset.sum_congr rfl fun cc _ => ?_
  have hcc : cc.val < 1024 := cc.isLt
  have hx : iblk0 V c 0 t (ix3 (0 : Fin 1) (j 2) cc) = V c main_arg0 (ix3 ((((cfg0.win 2).blk t).view.emb j) 0) ((((cfg0.win 2).blk t).view.emb j) 2) cc) := by
    show V c main_arg0 (((cfg0.win 0).blk t).view.emb (ix3 (0 : Fin 1) (j 2) cc)) = _
    refine congrArg (V c main_arg0) (funext fun a => Fin.ext ?_)
    match a with
    | ⟨0, _⟩ => show win0_0.index t (0 : Fin 3) * 1 + 1 * 0 = win0_2.index t (0 : Fin 4) * 1 + 1 * (j 0).val; omega
    | ⟨1, _⟩ => show win0_0.index t (1 : Fin 3) * 512 + 1 * (j 2).val = win0_2.index t (2 : Fin 4) * 512 + 1 * (j 2).val; omega
    | ⟨2, _⟩ => show win0_0.index t (2 : Fin 3) * 1024 + 1 * cc.val = cc.val; omega
  have hw : iblk0 V c 1 t (ix2 (Cert.Attn.wrow 0 (j 1) (j 3)) cc) = V c main_v0 (ix2 (Cert.Attn.wrow 0 ((((cfg0.win 2).blk t).view.emb j) 1) ((((cfg0.win 2).blk t).view.emb j) 3)) cc) := by
    show V c main_v0 (((cfg0.win 1).blk t).view.emb (ix2 (Cert.Attn.wrow 0 (j 1) (j 3)) cc)) = _
    refine congrArg (V c main_v0) (funext fun a => Fin.ext ?_)
    match a with
    | ⟨0, _⟩ => show win0_1.index t (0 : Fin 2) * 3072 + 1 * ((0 : ℕ) * 1024 + (j 1).val * 64 + (j 3).val) = (0 : ℕ) * 1024 + (win0_2.index t (1 : Fin 4) * 16 + 1 * (j 1).val) * 64 + (win0_2.index t (3 : Fin 4) * 64 + 1 * (j 3).val); omega
    | ⟨1, _⟩ => show win0_1.index t (1 : Fin 2) * 1024 + 1 * cc.val = cc.val; omega
  rw [hx, hw]
  rfl

/-- An index of the array is in point t's block iff each coordinate is in the block's range on its axis. -/
theorem mem_blk0_2 (t : Fin cfg0.N) (i : S4x16x2048x64.Idx) :
    i ∈ ((cfg0.win 2).blk t).view.set ↔ ∀ a : Fin 4, win0_2.index t a * S1x16x512x64.size a ≤ (i a).val ∧ (i a).val < win0_2.index t a * S1x16x512x64.size a + S1x16x512x64.size a := by
  show i ∈ ((View.whole main_v2_0).slice (win0_2.rect t)).set ↔ _
  rw [View.set_slice_whole, Rect.mem_set_unit]
  exact Iff.rfl

/-- Every index of the array is in the block of the point (batch, row / 512). -/
theorem covered0_2 (i : S4x16x2048x64.Idx) : ∃ t : Fin cfg0.N, (cfg0.win 2).flush t = true ∧ i ∈ ((cfg0.win 2).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto0_2 ⟨(i 0).val, hi0⟩ ⟨(i 2).val / 512, by omega⟩
  have q0 : win0_2.index t (0 : Fin 4) = (i 0).val := congrFun ht 0
  have q1 : win0_2.index t (1 : Fin 4) = 0 := congrFun ht 1
  have q2 : win0_2.index t (2 : Fin 4) = (i 2).val / 512 := congrFun ht 2
  have q3 : win0_2.index t (3 : Fin 4) = 0 := congrFun ht 3
  refine ⟨t, flush0_2 t, ?_⟩
  rw [mem_blk0_2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 512 ≤ (i 2).val ∧ (i 2).val < win0_2.index t (2 : Fin 4) * 512 + 512; omega
  | ⟨3, _⟩ => show win0_2.index t (3 : Fin 4) * 64 ≤ (i 3).val ∧ (i 3).val < win0_2.index t (3 : Fin 4) * 64 + 64; omega

/-- After the launch the array of window 2 is part 0 of the projection, whole. -/
theorem final0_2 (c : Dev nD) : (dat0 V c).arrAt 2 cfg0.N = projArr (V c main_arg0) (V c main_v0) 0 :=
  (dat0 V c).arrAt_eq_of_cover 2 _ (fun t _ => flushed0_2 V c t) covered0_2

/-! ## Output window 3: part 1 -/

/-- What grid point t writes back through window 3 is block t of part 1 of the projection of the arrays the launch finds. -/
theorem flushed0_3 (c : Dev nD) (t : Fin cfg0.N) :
    (dat0 V c).flushed 3 t = ((cfg0.win 3).blk t).view.read (Elt Ideal) (projArr (V c main_arg0) (V c main_v0) 1) := by
  show (cfg0.win 3).cut (grid0.coords t) ((dat0 V c).after 3 t) = _
  rw [after0_3]
  unfold out0_3
  rw [View.canon_unit_zero hz4]
  simp only [View.ld_unit_zero (S := S1x512x1024) hz3, View.ld_unit_zero (S := S3072x1024) hz2]
  obtain ⟨e0, e1, e2, e3, e4, e5, e6, e7, e8⟩ := idx_facts0_3 t
  funext j
  show k0_pay3 (iblk0 V c 0 t) (iblk0 V c 1 t) j = projArr (V c main_arg0) (V c main_v0) 1 (((cfg0.win 3).blk t).view.emb j)
  have hj0 : (j 0).val < 1 := (j 0).isLt
  have hj1 : (j 1).val < 16 := (j 1).isLt
  have hj2 : (j 2).val < 512 := (j 2).isLt
  have hj3 : (j 3).val < 64 := (j 3).isLt
  refine (pay3_at _ _ j).trans ?_
  refine Finset.sum_congr rfl fun cc _ => ?_
  have hcc : cc.val < 1024 := cc.isLt
  have hx : iblk0 V c 0 t (ix3 (0 : Fin 1) (j 2) cc) = V c main_arg0 (ix3 ((((cfg0.win 3).blk t).view.emb j) 0) ((((cfg0.win 3).blk t).view.emb j) 2) cc) := by
    show V c main_arg0 (((cfg0.win 0).blk t).view.emb (ix3 (0 : Fin 1) (j 2) cc)) = _
    refine congrArg (V c main_arg0) (funext fun a => Fin.ext ?_)
    match a with
    | ⟨0, _⟩ => show win0_0.index t (0 : Fin 3) * 1 + 1 * 0 = win0_3.index t (0 : Fin 4) * 1 + 1 * (j 0).val; omega
    | ⟨1, _⟩ => show win0_0.index t (1 : Fin 3) * 512 + 1 * (j 2).val = win0_3.index t (2 : Fin 4) * 512 + 1 * (j 2).val; omega
    | ⟨2, _⟩ => show win0_0.index t (2 : Fin 3) * 1024 + 1 * cc.val = cc.val; omega
  have hw : iblk0 V c 1 t (ix2 (Cert.Attn.wrow 1 (j 1) (j 3)) cc) = V c main_v0 (ix2 (Cert.Attn.wrow 1 ((((cfg0.win 3).blk t).view.emb j) 1) ((((cfg0.win 3).blk t).view.emb j) 3)) cc) := by
    show V c main_v0 (((cfg0.win 1).blk t).view.emb (ix2 (Cert.Attn.wrow 1 (j 1) (j 3)) cc)) = _
    refine congrArg (V c main_v0) (funext fun a => Fin.ext ?_)
    match a with
    | ⟨0, _⟩ => show win0_1.index t (0 : Fin 2) * 3072 + 1 * ((1 : ℕ) * 1024 + (j 1).val * 64 + (j 3).val) = (1 : ℕ) * 1024 + (win0_3.index t (1 : Fin 4) * 16 + 1 * (j 1).val) * 64 + (win0_3.index t (3 : Fin 4) * 64 + 1 * (j 3).val); omega
    | ⟨1, _⟩ => show win0_1.index t (1 : Fin 2) * 1024 + 1 * cc.val = cc.val; omega
  rw [hx, hw]
  rfl

/-- An index of the array is in point t's block iff each coordinate is in the block's range on its axis. -/
theorem mem_blk0_3 (t : Fin cfg0.N) (i : S4x16x2048x64.Idx) :
    i ∈ ((cfg0.win 3).blk t).view.set ↔ ∀ a : Fin 4, win0_3.index t a * S1x16x512x64.size a ≤ (i a).val ∧ (i a).val < win0_3.index t a * S1x16x512x64.size a + S1x16x512x64.size a := by
  show i ∈ ((View.whole main_v2_1).slice (win0_3.rect t)).set ↔ _
  rw [View.set_slice_whole, Rect.mem_set_unit]
  exact Iff.rfl

/-- Every index of the array is in the block of the point (batch, row / 512). -/
theorem covered0_3 (i : S4x16x2048x64.Idx) : ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto0_3 ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk0_3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- After the launch the array of window 3 is part 1 of the projection, whole. -/
theorem final0_3 (c : Dev nD) : (dat0 V c).arrAt 3 cfg0.N = projArr (V c main_arg0) (V c main_v0) 1 :=
  (dat0 V c).arrAt_eq_of_cover 3 _ (fun t _ => flushed0_3 V c t) covered0_3

/-! ## Output window 4: part 2 -/

/-- What grid point t writes back through window 4 is block t of part 2 of the projection of the arrays the launch finds. -/
theorem flushed0_4 (c : Dev nD) (t : Fin cfg0.N) :
    (dat0 V c).flushed 4 t = ((cfg0.win 4).blk t).view.read (Elt Ideal) (projArr (V c main_arg0) (V c main_v0) 2) := by
  show (cfg0.win 4).cut (grid0.coords t) ((dat0 V c).after 4 t) = _
  rw [after0_4]
  unfold out0_4
  rw [View.canon_unit_zero hz4]
  simp only [View.ld_unit_zero (S := S1x512x1024) hz3, View.ld_unit_zero (S := S3072x1024) hz2]
  obtain ⟨e0, e1, e2, e3, e4, e5, e6, e7, e8⟩ := idx_facts0_4 t
  funext j
  show k0_pay4 (iblk0 V c 0 t) (iblk0 V c 1 t) j = projArr (V c main_arg0) (V c main_v0) 2 (((cfg0.win 4).blk t).view.emb j)
  have hj0 : (j 0).val < 1 := (j 0).isLt
  have hj1 : (j 1).val < 16 := (j 1).isLt
  have hj2 : (j 2).val < 512 := (j 2).isLt
  have hj3 : (j 3).val < 64 := (j 3).isLt
  refine (pay4_at _ _ j).trans ?_
  refine Finset.sum_congr rfl fun cc _ => ?_
  have hcc : cc.val < 1024 := cc.isLt
  have hx : iblk0 V c 0 t (ix3 (0 : Fin 1) (j 2) cc) = V c main_arg0 (ix3 ((((cfg0.win 4).blk t).view.emb j) 0) ((((cfg0.win 4).blk t).view.emb j) 2) cc) := by
    show V c main_arg0 (((cfg0.win 0).blk t).view.emb (ix3 (0 : Fin 1) (j 2) cc)) = _
    refine congrArg (V c main_arg0) (funext fun a => Fin.ext ?_)
    match a with
    | ⟨0, _⟩ => show win0_0.index t (0 : Fin 3) * 1 + 1 * 0 = win0_4.index t (0 : Fin 4) * 1 + 1 * (j 0).val; omega
    | ⟨1, _⟩ => show win0_0.index t (1 : Fin 3) * 512 + 1 * (j 2).val = win0_4.index t (2 : Fin 4) * 512 + 1 * (j 2).val; omega
    | ⟨2, _⟩ => show win0_0.index t (2 : Fin 3) * 1024 + 1 * cc.val = cc.val; omega
  have hw : iblk0 V c 1 t (ix2 (Cert.Attn.wrow 2 (j 1) (j 3)) cc) = V c main_v0 (ix2 (Cert.Attn.wrow 2 ((((cfg0.win 4).blk t).view.emb j) 1) ((((cfg0.win 4).blk t).view.emb j) 3)) cc) := by
    show V c main_v0 (((cfg0.win 1).blk t).view.emb (ix2 (Cert.Attn.wrow 2 (j 1) (j 3)) cc)) = _
    refine congrArg (V c main_v0) (funext fun a => Fin.ext ?_)
    match a with
    | ⟨0, _⟩ => show win0_1.index t (0 : Fin 2) * 3072 + 1 * ((2 : ℕ) * 1024 + (j 1).val * 64 + (j 3).val) = (2 : ℕ) * 1024 + (win0_4.index t (1 : Fin 4) * 16 + 1 * (j 1).val) * 64 + (win0_4.index t (3 : Fin 4) * 64 + 1 * (j 3).val); omega
    | ⟨1, _⟩ => show win0_1.index t (1 : Fin 2) * 1024 + 1 * cc.val = cc.val; omega
  rw [hx, hw]
  rfl

/-- An index of the array is in point t's block iff each coordinate is in the block's range on its axis. -/
theorem mem_blk0_4 (t : Fin cfg0.N) (i : S4x16x2048x64.Idx) :
    i ∈ ((cfg0.win 4).blk t).view.set ↔ ∀ a : Fin 4, win0_4.index t a * S1x16x512x64.size a ≤ (i a).val ∧ (i a).val < win0_4.index t a * S1x16x512x64.size a + S1x16x512x64.size a := by
  show i ∈ ((View.whole main_v2_2).slice (win0_4.rect t)).set ↔ _
  rw [View.set_slice_whole, Rect.mem_set_unit]
  exact Iff.rfl

/-- Every index of the array is in the block of the point (batch, row / 512). -/
theorem covered0_4 (i : S4x16x2048x64.Idx) : ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto0_4 ⟨(i 0).val, hi0⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [mem_blk0_4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- After the launch the array of window 4 is part 2 of the projection, whole. -/
theorem final0_4 (c : Dev nD) : (dat0 V c).arrAt 4 cfg0.N = projArr (V c main_arg0) (V c main_v0) 2 :=
  (dat0 V c).arrAt_eq_of_cover 4 _ (fun t _ => flushed0_4 V c t) covered0_4

end Cert.KernelIdeal.AttnVal0

end
-- ==== Proof.SpecRow.lean ====
/-
  The kernel's spelling of attention for ONE query row: given the row's 64 query entries and the 2048 × 64 keys and
  values of its (batch, head), the scores (Σ_d q·k)·2⁻³, their maximum folded from −∞, the weights exp(s − m), and the
  row (Σ_j p·v)/Σ_j p. The array-level attnK is this at row (b, h, i).
-/
import proofs.«124630_j25434796327784_2_alg».proof.Proof.Spec

noncomputable section

namespace Cert.Attn

open Idealize.ShloMosaic

def scoreRowK (qrow : Fin 64 → EReal) (k : Fin 2048 → Fin 64 → EReal) (j : Fin 2048) : EReal :=
  (∑ d : Fin 64, qrow d * k j d) * scale

def weightRowK (qrow : Fin 64 → EReal) (k : Fin 2048 → Fin 64 → EReal) (j : Fin 2048) : EReal :=
  Ideal.exp (scoreRowK qrow k j - rowmax (scoreRowK qrow k))

def attnRowK (qrow : Fin 64 → EReal) (k v : Fin 2048 → Fin 64 → EReal) (d : Fin 64) : EReal :=
  Ideal.div (∑ j : Fin 2048, weightRowK qrow k j * v j d) (∑ j : Fin 2048, weightRowK qrow k j)

theorem attnK_eq_row (q k v : A4) (b : Fin 4) (h : Fin 16) (i : Fin 2048) (d : Fin 64) :
    attnK q k v b h i d = attnRowK (q b h i) (k b h) (v b h) d := rfl

end Cert.Attn

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KPay1.lean ====
/-
  The attention launch's body, read at an index. One block of 1024 query rows of one (batch, head) meets all 2048 key
  and value rows of it: the scores are the query–key dot products times 2⁻³, each row's maximum is folded from −∞, the
  weights are exp(score − maximum), and row r of the stored block is (Σ_j weight·value) / Σ_j weight.
-/
import proofs.«124630_j25434796327784_2_alg».proof.Proof.Gen.KernelIdeal.Skeleton
import proofs.«124630_j25434796327784_2_alg».proof.Proof.Spec
import proofs.«124630_j25434796327784_2_alg».proof.Proof.SpecRow
import proofs.«124630_j25434796327784_2_alg».proof.Proof.LibMatmul
import proofs.«124630_j25434796327784_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.AttnPay

open Cert.KernelIdeal Cert.KernelIdeal.Gen
open Idealize.ShloMosaic Idealize.ShloMosaic.ValueIdx

/-! ## The two products' operand indices -/

/-- The score product at output index j and contraction position q: row (j 0) of the queries and row (j 1) of the
    keys, both at lane q. -/
theorem lhs1s_0 (j : S1024x2048.Idx) (q : dot_S1024x64_S2048x64_S1024x2048_1_1_0_0_n_n.contr.Idx) : (dot_S1024x64_S2048x64_S1024x2048_1_1_0_0_n_n.lhsIdx j q 0).val = (j 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs1s_1 (j : S1024x2048.Idx) (q : dot_S1024x64_S2048x64_S1024x2048_1_1_0_0_n_n.contr.Idx) : (dot_S1024x64_S2048x64_S1024x2048_1_1_0_0_n_n.lhsIdx j q 1).val = (q ⟨0, by decide⟩).val :=
  dot_S1024x64_S2048x64_S1024x2048_1_1_0_0_n_n.lhsIdx_val_of_single rfl j q
theorem rhs1s_0 (j : S1024x2048.Idx) (q : dot_S1024x64_S2048x64_S1024x2048_1_1_0_0_n_n.contr.Idx) : (dot_S1024x64_S2048x64_S1024x2048_1_1_0_0_n_n.rhsIdx j q 0).val = (j 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs1s_1 (j : S1024x2048.Idx) (q : dot_S1024x64_S2048x64_S1024x2048_1_1_0_0_n_n.contr.Idx) : (dot_S1024x64_S2048x64_S1024x2048_1_1_0_0_n_n.rhsIdx j q 1).val = (q ⟨0, by decide⟩).val :=
  dot_S1024x64_S2048x64_S1024x2048_1_1_0_0_n_n.rhsIdx_val_of_single rfl j q

/-- The value product at output index j and contraction position q: row (j 0) of the weights at column q, and row q
    of the values at lane (j 1). -/
theorem lhs1v_0 (j : S1024x64.Idx) (q : dot_S1024x2048_S2048x64_S1024x64_1_0_0_1_n_n.contr.Idx) : (dot_S1024x2048_S2048x64_S1024x64_1_0_0_1_n_n.lhsIdx j q 0).val = (j 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs1v_1 (j : S1024x64.Idx) (q : dot_S1024x2048_S2048x64_S1024x64_1_0_0_1_n_n.contr.Idx) : (dot_S1024x2048_S2048x64_S1024x64_1_0_0_1_n_n.lhsIdx j q 1).val = (q ⟨0, by decide⟩).val :=
  dot_S1024x2048_S2048x64_S1024x64_1_0_0_1_n_n.lhsIdx_val_of_single rfl j q
theorem rhs1v_0 (j : S1024x64.Idx) (q : dot_S1024x2048_S2048x64_S1024x64_1_0_0_1_n_n.contr.Idx) : (dot_S1024x2048_S2048x64_S1024x64_1_0_0_1_n_n.rhsIdx j q 0).val = (q ⟨0, by decide⟩).val :=
  dot_S1024x2048_S2048x64_S1024x64_1_0_0_1_n_n.rhsIdx_val_of_single rfl j q
theorem rhs1v_1 (j : S1024x64.Idx) (q : dot_S1024x2048_S2048x64_S1024x64_1_0_0_1_n_n.contr.Idx) : (dot_S1024x2048_S2048x64_S1024x64_1_0_0_1_n_n.rhsIdx j q 1).val = (j 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-! ## The blocks without their two leading unit axes -/

theorem k1_q_apply (q : Vec Ideal S1x1x1024x64 .bf16) (r : Fin 1024) (d : Fin 64) :
    shapeCast S1024x64 q shapeCasts_S1x1x1024x64_S1024x64 (ix2 r d) = q (ix4 (0 : Fin 1) (0 : Fin 1) r d) :=
  shapeCast_apply _ _ _ _ (by
    rw [Shape.rowMajor_val_four, Shape.rowMajor_val_two]
    show ((((0 : ℕ) * 1 + 0) * 1024 + r.val) * 64 + d.val) = r.val * 64 + d.val
    omega)

theorem k1_kv_apply (k : Vec Ideal S1x1x2048x64 .bf16) (j : Fin 2048) (d : Fin 64) :
    shapeCast S2048x64 k shapeCasts_S1x1x2048x64_S2048x64 (ix2 j d) = k (ix4 (0 : Fin 1) (0 : Fin 1) j d) :=
  shapeCast_apply _ _ _ _ (by
    rw [Shape.rowMajor_val_four, Shape.rowMajor_val_two]
    show ((((0 : ℕ) * 1 + 0) * 2048 + j.val) * 64 + d.val) = j.val * 64 + d.val
    omega)

/-! ## The scores -/

/-- Entry (r, j) of the scaled product: query row r against key row j, times 2⁻³. -/
theorem k1_score_apply (q1 : FVec Ideal S1024x64 .bf16) (k1 : FVec Ideal S2048x64 .bf16) (r : Fin 1024) (j : Fin 2048) :
    mulf (matmul dot_S1024x64_S2048x64_S1024x2048_1_1_0_0_n_n none q1 k1 (constant (F := Ideal) S1024x2048 .f32 0x00000000#32))
        (broadcast S1024x2048 (Scalar.ofBits (F := Ideal) .f32 0x3E000000#32)) (ix2 r j)
      = (∑ d : Fin 64, q1 (ix2 r d) * k1 (ix2 j d)) * Cert.Attn.scale := by
  rw [mulf_apply]
  refine congrArg₂ (· * ·) ?_ rfl
  refine Cert.LibMatmul.matmul_zero_sum1 dot_S1024x64_S2048x64_S1024x2048_1_1_0_0_n_n none 64 rfl rfl q1 k1 (ix2 r j)
    (fun d => ix2 r d) (fun d => ix2 j d) ?_ ?_
  · intro q c hc
    funext x; apply Fin.ext
    match x with
    | ⟨0, _⟩ => exact lhs1s_0 _ _
    | ⟨1, _⟩ => exact (lhs1s_1 _ _).trans hc
  · intro q c hc
    funext x; apply Fin.ext
    match x with
    | ⟨0, _⟩ => exact rhs1s_0 _ _
    | ⟨1, _⟩ => exact (rhs1s_1 _ _).trans hc

/-- The block's scores as the body spells them. -/
abbrev k1Scores (q : Vec Ideal S1x1x1024x64 .bf16) (k : Vec Ideal S1x1x2048x64 .bf16) : FVec Ideal S1024x2048 .f32 :=
  mulf (matmul dot_S1024x64_S2048x64_S1024x2048_1_1_0_0_n_n none (shapeCast S1024x64 q shapeCasts_S1x1x1024x64_S1024x64 : FVec Ideal S1024x64 .bf16)
      (shapeCast S2048x64 k shapeCasts_S1x1x2048x64_S2048x64 : FVec Ideal S2048x64 .bf16) (constant (F := Ideal) S1024x2048 .f32 0x00000000#32))
    (broadcast S1024x2048 (Scalar.ofBits (F := Ideal) .f32 0x3E000000#32))

theorem k1_scores_eq (q : Vec Ideal S1x1x1024x64 .bf16) (k : Vec Ideal S1x1x2048x64 .bf16) (r : Fin 1024) (j : Fin 2048) :
    k1Scores q k (ix2 r j)
      = Cert.Attn.scoreRowK (fun dd => q (ix4 (0 : Fin 1) (0 : Fin 1) r dd)) (fun j dd => k (ix4 (0 : Fin 1) (0 : Fin 1) j dd)) j := by
  refine (k1_score_apply _ _ r j).trans ?_
  unfold Cert.Attn.scoreRowK
  exact congrArg₂ (· * ·) (Finset.sum_congr rfl fun dd _ => congrArg₂ (· * ·) (k1_q_apply q r dd) (k1_kv_apply k j dd)) rfl

/-! ## The row statistics -/

/-- Row r with the key coordinate j inserted on the last axis is (r, j). -/
theorem k1_lift_eq (r : Fin 1024) (j : Fin 2048) :
    reduces_S1024x2048_S1024.lift (ix1 r) j = ix2 r j := by
  funext a
  match a with
  | ⟨0, _⟩ => exact Fin.ext rfl
  | ⟨1, _⟩ => exact Fin.ext rfl

/-- The row maximum: the fold of max from −∞ over the row. -/
theorem k1_rowmax_apply (s8 : FVec Ideal S1024x2048 .f32) (r : Fin 1024) :
    multiReduction (F := Ideal) .maximumf [1] S1024 s8 0xFF800000#32 reduces_S1024x2048_S1024 (.inl rfl) rfl (ix1 r)
      = Cert.Attn.rowmax (fun j => s8 (ix2 r j)) := by
  refine (Ideal.multiReduction_maximumf_single s8 0xFF800000#32 reduces_S1024x2048_S1024 (.inl rfl) rfl (ix1 r)).trans ?_
  have hf : (s8 ∘ reduces_S1024x2048_S1024.lift (ix1 r)) = fun j : Fin 2048 => s8 (ix2 r j) :=
    funext fun j => congrArg s8 (k1_lift_eq r j)
  rw [hf]
  rfl

/-- The row sum. -/
theorem k1_rowsum_apply (p : FVec Ideal S1024x2048 .f32) (r : Fin 1024) :
    multiReduction (F := Ideal) .add [1] S1024 p 0x00000000#32 reduces_S1024x2048_S1024 (.inl rfl) rfl (ix1 r)
      = ∑ j : Fin 2048, p (ix2 r j) := by
  refine (Ideal.multiReduction_add_single p 0x00000000#32 reduces_S1024x2048_S1024 (.inl rfl) rfl (ix1 r)).trans ?_
  exact Finset.sum_congr rfl fun j _ => congrArg p (k1_lift_eq r j)

/-- A row statistic kept as a column and broadcast along the keys reads the statistic of its row. -/
theorem k1_colS_apply (x : FVec Ideal S1024 .f32) (r : Fin 1024) (j : Fin 2048) :
    broadcastTo S1024x2048 (shapeCast S1024x1 x shapeCasts_S1024_S1024x1) broadcasts_S1024x1_S1024x2048 (ix2 r j) = x (ix1 r) :=
  (Cert.LibKeepdims.broadcastTo_a1_ab_apply _ _ r j).trans (Cert.LibKeepdims.shapeCast_a_a1_apply _ _ r (0 : Fin 1))
/-- The same along the lanes. -/
theorem k1_colD_apply (x : FVec Ideal S1024 .f32) (r : Fin 1024) (d : Fin 64) :
    broadcastTo S1024x64 (shapeCast S1024x1 x shapeCasts_S1024_S1024x1) broadcasts_S1024x1_S1024x64 (ix2 r d) = x (ix1 r) :=
  (Cert.LibKeepdims.broadcastTo_a1_ab_apply _ _ r d).trans (Cert.LibKeepdims.shapeCast_a_a1_apply _ _ r (0 : Fin 1))

/-! ## The weights -/

/-- exp of the score less its row's maximum, for any score matrix. -/
theorem k1_weight_apply (s8 : FVec Ideal S1024x2048 .f32) (r : Fin 1024) (j : Fin 2048) :
    exp (subf s8 (broadcastTo S1024x2048 (shapeCast S1024x1
        (multiReduction (F := Ideal) .maximumf [1] S1024 s8 0xFF800000#32 reduces_S1024x2048_S1024 (.inl rfl) rfl)
        shapeCasts_S1024_S1024x1) broadcasts_S1024x1_S1024x2048)) (ix2 r j)
      = Ideal.exp (s8 (ix2 r j) - Cert.Attn.rowmax (fun j' => s8 (ix2 r j'))) := by
  refine congrArg Ideal.exp (congrArg₂ (· - ·) rfl ?_)
  exact (k1_colS_apply _ r j).trans (k1_rowmax_apply s8 r)

/-- The block's weights are the row's weights. -/
theorem k1_weights_eq (q : Vec Ideal S1x1x1024x64 .bf16) (k : Vec Ideal S1x1x2048x64 .bf16) (r : Fin 1024) (j : Fin 2048) :
    Ideal.exp (k1Scores q k (ix2 r j) - Cert.Attn.rowmax (fun j' => k1Scores q k (ix2 r j')))
      = Cert.Attn.weightRowK (fun dd => q (ix4 (0 : Fin 1) (0 : Fin 1) r dd)) (fun j dd => k (ix4 (0 : Fin 1) (0 : Fin 1) j dd)) j := by
  have hs : (fun j' => k1Scores q k (ix2 r j'))
      = Cert.Attn.scoreRowK (fun dd => q (ix4 (0 : Fin 1) (0 : Fin 1) r dd)) (fun j dd => k (ix4 (0 : Fin 1) (0 : Fin 1) j dd)) :=
    funext fun j' => k1_scores_eq q k r j'
  rw [hs, k1_scores_eq]
  rfl

/-! ## The weighted values -/

/-- A format change of the weights is the identity, so the product is the sum of weight times value. -/
theorem k1_pv_apply (p : FVec Ideal S1024x2048 .f32) (v1 : FVec Ideal S2048x64 .bf16) (r : Fin 1024) (d : Fin 64) :
    matmul dot_S1024x2048_S2048x64_S1024x64_1_0_0_1_n_n none (truncf .bf16 p bitsLt_bf16_f32) v1 (constant (F := Ideal) S1024x64 .f32 0x00000000#32) (ix2 r d)
      = ∑ j : Fin 2048, p (ix2 r j) * v1 (ix2 j d) := by
  refine (Cert.LibMatmul.matmul_zero_sum1 dot_S1024x2048_S2048x64_S1024x64_1_0_0_1_n_n none 2048 rfl rfl (truncf .bf16 p bitsLt_bf16_f32) v1 (ix2 r d)
    (fun j => ix2 r j) (fun j => ix2 j d) ?_ ?_).trans ?_
  · intro q c hc
    funext x; apply Fin.ext
    match x with
    | ⟨0, _⟩ => exact lhs1v_0 _ _
    | ⟨1, _⟩ => exact (lhs1v_1 _ _).trans hc
  · intro q c hc
    funext x; apply Fin.ext
    match x with
    | ⟨0, _⟩ => exact (rhs1v_0 _ _).trans hc
    | ⟨1, _⟩ => exact rhs1v_1 _ _
  · exact Finset.sum_congr rfl fun j _ => rfl

/-- A narrowing format change read at an index is the identity. -/
theorem k1_truncf_apply {s : Shape} (a : FVec Ideal s .f32) (h : FTy.bits .bf16 < FTy.bits .f32) (i : s.Idx) :
    (truncf .bf16 a h : FVec Ideal s .bf16) i = a i := rfl

/-! ## The body -/

/-- Row r, lane d of the stored block is the attention row of query row r. -/
theorem attn_apply (q : Vec Ideal S1x1x1024x64 .bf16) (k v : Vec Ideal S1x1x2048x64 .bf16) (r : Fin 1024) (d : Fin 64) :
    k1_pay1 (F := Ideal) q k v (ix4 (0 : Fin 1) (0 : Fin 1) r d)
      = Cert.Attn.attnRowK (fun dd => q (ix4 (0 : Fin 1) (0 : Fin 1) r dd)) (fun j dd => k (ix4 (0 : Fin 1) (0 : Fin 1) j dd))
          (fun j dd => v (ix4 (0 : Fin 1) (0 : Fin 1) j dd)) d := by
  have hr : r.val < 1024 := r.isLt
  have hd : d.val < 64 := d.isLt
  unfold k1_pay1 Cert.Attn.attnRowK
  -- [1,1,1024,64] at (0,0,r,d) reads [1024,64] at (r,d)
  refine (shapeCast_apply _ _ _ (ix2 r d)
    (by rw [Shape.rowMajor_val_two, Shape.rowMajor_val_four]
        show r.val * 64 + d.val = ((((0 : ℕ) * 1 + 0) * 1024 + r.val) * 64 + d.val)
        omega)).trans ?_
  refine (k1_truncf_apply _ _ _).trans ?_
  rw [divf_apply]
  refine congrArg₂ Ideal.div ?_ ?_
  · refine (k1_pv_apply _ _ r d).trans ?_
    refine Finset.sum_congr rfl fun j _ => ?_
    exact congrArg₂ (· * ·) ((k1_weight_apply _ r j).trans (k1_weights_eq q k r j)) (k1_kv_apply v j d)
  · refine (k1_colD_apply _ r d).trans ?_
    refine (k1_rowsum_apply _ r).trans ?_
    exact Finset.sum_congr rfl fun j _ => (k1_weight_apply _ r j).trans (k1_weights_eq q k r j)

end Cert.KernelIdeal.AttnPay

end
-- ==== Proof.KVal1.lean ====
/-
  The attention launch, from blocks to arrays. The grid is (batch, head, query block of 1024): point t reads query rows
  [1024·qi, 1024·qi + 1024) of (b, h) and ALL 2048 key rows and value rows of (b, h), and writes the same query rows of
  (b, h) of the output. The blocks tile the output, so after the launch row (b, h, i) of it is the kernel's attention
  row — scores scaled after the dot product, weights divided by their sum after the product with the values — of the
  query, key and value arrays the launch found.
-/
import proofs.«124630_j25434796327784_2_alg».proof.Proof.Gen.KernelIdeal.Frame
import proofs.«124630_j25434796327784_2_alg».proof.Proof.KPay1
import proofs.«124630_j25434796327784_2_alg».proof.Proof.SpecRow
import Idealize.ShloMosaic.Lib.Pipeline.Value
import Idealize.ShloMosaic.Lib.ValueIdx

set_option maxRecDepth 16384

noncomputable section

namespace Cert.KernelIdeal.AttnVal1

open Cert.KernelIdeal Cert.KernelIdeal.Gen Cert.KernelIdeal.AttnPay
open Idealize.ShloMosaic Idealize.ShloMosaic.TcCoe Idealize.ShloMosaic.ValueIdx
open Idealize.SL Idealize.SL.Sem
open Idealize.ShloMosaic.Pipeline (Dat Cfg Window)

theorem hz4 : (![0, 0, 0, 0] : Fin 4 → Nat) = fun _ => 0 := funext fun a => by fin_cases a <;> rfl

/-- The kernel's attention of three arrays in head layout, as an array. -/
abbrev attnArr (q k v : S4x16x2048x64.Idx → EReal) : S4x16x2048x64.Idx → EReal :=
  fun y => Cert.Attn.attnK (Cert.Attn.cur4 q) (Cert.Attn.cur4 k) (Cert.Attn.cur4 v) (y 0) (y 1) (y 2) (y 3)

/-- The printed index maps, decided over the 128 grid points: the query block moves with the output block; the key
    and value blocks are all rows of the output block's (batch, head). -/
theorem idx_facts1 : ∀ t : Fin cfg1.N,
    win1_0.index t (0 : Fin 4) = win1_3.index t (0 : Fin 4) ∧ win1_0.index t (1 : Fin 4) = win1_3.index t (1 : Fin 4) ∧ win1_0.index t (2 : Fin 4) = win1_3.index t (2 : Fin 4) ∧ win1_0.index t (3 : Fin 4) = 0
    ∧ win1_1.index t (0 : Fin 4) = win1_3.index t (0 : Fin 4) ∧ win1_1.index t (1 : Fin 4) = win1_3.index t (1 : Fin 4) ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4) ∧ win1_2.index t (2 : Fin 4) = 0 ∧ win1_2.index t (3 : Fin 4) = 0
    ∧ win1_3.index t (3 : Fin 4) = 0
    ∧ win1_3.index t (0 : Fin 4) ≤ 3 ∧ win1_3.index t (1 : Fin 4) ≤ 15 ∧ win1_3.index t (2 : Fin 4) ≤ 1 :=
  (by decide +kernel : ∀ t : Fin grid1.N, _)

/-- Every (batch, head, query block) is some point's. -/
theorem idx_onto1 : ∀ (q0 : Fin 4) (q1 : Fin 16) (q2 : Fin 2), ∃ t : Fin cfg1.N, win1_3.index t = ![q0.val, q1.val, q2.val, 0] :=
  (by decide +kernel : ∀ (q0 : Fin 4) (q1 : Fin 16) (q2 : Fin 2), ∃ t : Fin grid1.N, win1_3.index t = ![q0.val, q1.val, q2.val, 0])

/-- The stored block at any of its indices, by the index's coordinates. -/
theorem attn_at (q : Vec Ideal S1x1x1024x64 .bf16) (k v : Vec Ideal S1x1x2048x64 .bf16) (j : S1x1x1024x64.Idx) :
    k1_pay1 (F := Ideal) q k v j
      = Cert.Attn.attnRowK (fun dd => q (ix4 (0 : Fin 1) (0 : Fin 1) (j 2) dd)) (fun jj dd => k (ix4 (0 : Fin 1) (0 : Fin 1) jj dd)) (fun jj dd => v (ix4 (0 : Fin 1) (0 : Fin 1) jj dd)) (j 3) := by
  have e : j = ix4 (0 : Fin 1) (0 : Fin 1) (j 2) (j 3) := funext fun a => match a with
    | ⟨0, _⟩ => Fin.ext (by have h0 : (j 0).val < 1 := (j 0).isLt; show (j 0).val = 0; omega)
    | ⟨1, _⟩ => Fin.ext (by have h1 : (j 1).val < 1 := (j 1).isLt; show (j 1).val = 0; omega)
    | ⟨2, _⟩ => rfl | ⟨3, _⟩ => rfl
  exact (congrArg (k1_pay1 (F := Ideal) q k v) e).trans (attn_apply q k v (j 2) (j 3))

/-- A row's attention depends only on the row's query entries, the keys, the values and the lane. -/
theorem attnRowK_congr {q q' : Fin 64 → EReal} {k k' v v' : Fin 2048 → Fin 64 → EReal} {d d' : Fin 64}
    (hq : q = q') (hk : k = k') (hv : v = v') (hd : d = d') : Cert.Attn.attnRowK q k v d = Cert.Attn.attnRowK q' k' v' d' := by
  subst hq; subst hk; subst hv; subst hd; rfl

variable (V : (c : Dev nD) → (b : Ref sig .tc) → Buf (Elt Ideal) ((c : Thread nD τ).loc b))

/-- What grid point t writes back is block t of the attention of the arrays the launch finds. -/
theorem flushed1_3 (c : Dev nD) (t : Fin cfg1.N) :
    (dat1 V c).flushed 3 t = ((cfg1.win 3).blk t).view.read (Elt Ideal) (attnArr (V c main_v2_0) (V c main_v2_1) (V c main_v2_2)) := by
  show (cfg1.win 3).cut (grid1.coords t) ((dat1 V c).after 3 t) = _
  rw [after1_3]
  unfold out1_3
  rw [View.canon_unit_zero hz4]
  simp only [View.ld_unit_zero (S := S1x1x1024x64) hz4, View.ld_unit_zero (S := S1x1x2048x64) hz4]
  obtain ⟨e0, e1, e2, e3, e4, e5, e6, e7, e8, e9, e10, e11, e12, e13, e14, e15⟩ := idx_facts1 t
  funext j
  show k1_pay1 (iblk1 V c 0 t) (iblk1 V c 1 t) (iblk1 V c 2 t) j = attnArr (V c main_v2_0) (V c main_v2_1) (V c main_v2_2) (((cfg1.win 3).blk t).view.emb j)
  have hj0 : (j 0).val < 1 := (j 0).isLt
  have hj1 : (j 1).val < 1 := (j 1).isLt
  have hj2 : (j 2).val < 1024 := (j 2).isLt
  have hj3 : (j 3).val < 64 := (j 3).isLt
  refine (attn_at _ _ _ j).trans ?_
  refine (attnRowK_congr (q' := Cert.Attn.cur4 (V c main_v2_0) ((((cfg1.win 3).blk t).view.emb j) 0) ((((cfg1.win 3).blk t).view.emb j) 1) ((((cfg1.win 3).blk t).view.emb j) 2))
    (k' := Cert.Attn.cur4 (V c main_v2_1) ((((cfg1.win 3).blk t).view.emb j) 0) ((((cfg1.win 3).blk t).view.emb j) 1))
    (v' := Cert.Attn.cur4 (V c main_v2_2) ((((cfg1.win 3).blk t).view.emb j) 0) ((((cfg1.win 3).blk t).view.emb j) 1))
    (d' := (((cfg1.win 3).blk t).view.emb j) 3) ?_ ?_ ?_ ?_).trans ?_
  · funext dd
    have hdd : dd.val < 64 := dd.isLt
    show V c main_v2_0 (((cfg1.win 0).blk t).view.emb (ix4 (0 : Fin 1) (0 : Fin 1) (j 2) dd)) = V c main_v2_0 (ix4 ((((cfg1.win 3).blk t).view.emb j) 0) ((((cfg1.win 3).blk t).view.emb j) 1) ((((cfg1.win 3).blk t).view.emb j) 2) dd)
    refine congrArg (V c main_v2_0) (funext fun a => Fin.ext ?_)
    match a with
    | ⟨0, _⟩ => show win1_0.index t (0 : Fin 4) * 1 + 1 * 0 = win1_3.index t (0 : Fin 4) * 1 + 1 * (j 0).val; omega
    | ⟨1, _⟩ => show win1_0.index t (1 : Fin 4) * 1 + 1 * 0 = win1_3.index t (1 : Fin 4) * 1 + 1 * (j 1).val; omega
    | ⟨2, _⟩ => show win1_0.index t (2 : Fin 4) * 1024 + 1 * (j 2).val = win1_3.index t (2 : Fin 4) * 1024 + 1 * (j 2).val; omega
    | ⟨3, _⟩ => show win1_0.index t (3 : Fin 4) * 64 + 1 * dd.val = dd.val; omega
  · funext jj dd
    have hjj : jj.val < 2048 := jj.isLt
    have hdd : dd.val < 64 := dd.isLt
    show V c main_v2_1 (((cfg1.win 1).blk t).view.emb (ix4 (0 : Fin 1) (0 : Fin 1) jj dd)) = V c main_v2_1 (ix4 ((((cfg1.win 3).blk t).view.emb j) 0) ((((cfg1.win 3).blk t).view.emb j) 1) jj dd)
    refine congrArg (V c main_v2_1) (funext fun a => Fin.ext ?_)
    match a with
    | ⟨0, _⟩ => show win1_1.index t (0 : Fin 4) * 1 + 1 * 0 = win1_3.index t (0 : Fin 4) * 1 + 1 * (j 0).val; omega
    | ⟨1, _⟩ => show win1_1.index t (1 : Fin 4) * 1 + 1 * 0 = win1_3.index t (1 : Fin 4) * 1 + 1 * (j 1).val; omega
    | ⟨2, _⟩ => show win1_1.index t (2 : Fin 4) * 2048 + 1 * jj.val = jj.val; omega
    | ⟨3, _⟩ => show win1_1.index t (3 : Fin 4) * 64 + 1 * dd.val = dd.val; omega
  · funext jj dd
    have hjj : jj.val < 2048 := jj.isLt
    have hdd : dd.val < 64 := dd.isLt
    show V c main_v2_2 (((cfg1.win 2).blk t).view.emb (ix4 (0 : Fin 1) (0 : Fin 1) jj dd)) = V c main_v2_2 (ix4 ((((cfg1.win 3).blk t).view.emb j) 0) ((((cfg1.win 3).blk t).view.emb j) 1) jj dd)
    refine congrArg (V c main_v2_2) (funext fun a => Fin.ext ?_)
    match a with
    | ⟨0, _⟩ => show win1_2.index t (0 : Fin 4) * 1 + 1 * 0 = win1_3.index t (0 : Fin 4) * 1 + 1 * (j 0).val; omega
    | ⟨1, _⟩ => show win1_2.index t (1 : Fin 4) * 1 + 1 * 0 = win1_3.index t (1 : Fin 4) * 1 + 1 * (j 1).val; omega
    | ⟨2, _⟩ => show win1_2.index t (2 : Fin 4) * 2048 + 1 * jj.val = jj.val; omega
    | ⟨3, _⟩ => show win1_2.index t (3 : Fin 4) * 64 + 1 * dd.val = dd.val; omega
  · apply Fin.ext
    show (j 3).val = win1_3.index t (3 : Fin 4) * 64 + 1 * (j 3).val
    omega
  · rfl

/-- An index of the array is in point t's block iff each coordinate is in the block's range on its axis. -/
theorem mem_blk1_3 (t : Fin cfg1.N) (i : S4x16x2048x64.Idx) :
    i ∈ ((cfg1.win 3).blk t).view.set ↔ ∀ a : Fin 4, win1_3.index t a * S1x1x1024x64.size a ≤ (i a).val ∧ (i a).val < win1_3.index t a * S1x1x1024x64.size a + S1x1x1024x64.size a := by
  show i ∈ ((View.whole main_v3).slice (win1_3.rect t)).set ↔ _
  rw [View.set_slice_whole, Rect.mem_set_unit]
  exact Iff.rfl

/-- Every index of the output is in the block of the point (batch, head, row / 1024). -/
theorem covered1_3 (i : S4x16x2048x64.Idx) : ∃ t : Fin cfg1.N, (cfg1.win 3).flush t = true ∧ i ∈ ((cfg1.win 3).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto1 ⟨(i 0).val, hi0⟩ ⟨(i 1).val, hi1⟩ ⟨(i 2).val / 1024, by omega⟩
  have q0 : win1_3.index t (0 : Fin 4) = (i 0).val := congrFun ht 0
  have q1 : win1_3.index t (1 : Fin 4) = (i 1).val := congrFun ht 1
  have q2 : win1_3.index t (2 : Fin 4) = (i 2).val / 1024 := congrFun ht 2
  have q3 : win1_3.index t (3 : Fin 4) = 0 := congrFun ht 3
  refine ⟨t, flush1_3 t, ?_⟩
  rw [mem_blk1_3]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 1024 ≤ (i 2).val ∧ (i 2).val < win1_3.index t (2 : Fin 4) * 1024 + 1024; omega
  | ⟨3, _⟩ => show win1_3.index t (3 : Fin 4) * 64 ≤ (i 3).val ∧ (i 3).val < win1_3.index t (3 : Fin 4) * 64 + 64; omega

/-- After the launch the output array is the attention of the three arrays, whole. -/
theorem final1_3 (c : Dev nD) : (dat1 V c).arrAt 3 cfg1.N = attnArr (V c main_v2_0) (V c main_v2_1) (V c main_v2_2) :=
  (dat1 V c).arrAt_eq_of_cover 3 _ (fun t _ => flushed1_3 V c t) covered1_3

end Cert.KernelIdeal.AttnVal1

end
-- ==== Proof.KPay2.lean ====
/-
  The output projection's body, read at an index. A block of 512 rows of the attention output arrives head by head,
  [1, 16, 512, 64]; the heads are laid side by side (entry (r, c) of the merged block is entry (c / 64, r, c % 64) of
  the stored one), the merged block is multiplied with all 1024 rows of the output weights, and the bias row is added
  to every row of the product.
-/
import proofs.«124630_j25434796327784_2_alg».proof.Proof.Gen.KernelIdeal.Skeleton
import proofs.«124630_j25434796327784_2_alg».proof.Proof.Spec
import proofs.«124630_j25434796327784_2_alg».proof.Proof.SpecRow
import proofs.«124630_j25434796327784_2_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.AttnPay

open Cert.KernelIdeal Cert.KernelIdeal.Gen
open Idealize.ShloMosaic Idealize.ShloMosaic.ValueIdx

/-- The product's operand indices at output index j and contraction position q: row (j 0) of the left operand and row
    (j 1) of the right, both at column q. -/
theorem lhs2_0 (j : S512x1024.Idx) (q : dot_S512x1024_S1024x1024_S512x1024_1_1_0_0_n_n.contr.Idx) : (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs2_1 (j : S512x1024.Idx) (q : dot_S512x1024_S1024x1024_S512x1024_1_1_0_0_n_n.contr.Idx) : (dot_S512x1024_S1024x1024_S512x1024_1_1_0_0_n_n.lhsIdx j q 1).val = (q ⟨0, by decide⟩).val :=
  dot_S512x1024_S1024x1024_S512x1024_1_1_0_0_n_n.lhsIdx_val_of_single rfl j q
theorem rhs2_0 (j : S512x1024.Idx) (q : dot_S512x1024_S1024x1024_S512x1024_1_1_0_0_n_n.contr.Idx) : (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs2_1 (j : S512x1024.Idx) (q : dot_S512x1024_S1024x1024_S512x1024_1_1_0_0_n_n.contr.Idx) : (dot_S512x1024_S1024x1024_S512x1024_1_1_0_0_n_n.rhsIdx j q 1).val = (q ⟨0, by decide⟩).val :=
  dot_S512x1024_S1024x1024_S512x1024_1_1_0_0_n_n.rhsIdx_val_of_single rfl j q

/-- The merged block: entry (r, c) is head c / 64, row r, lane c % 64 of the stored block. -/
theorem merged_apply (a : Vec Ideal S1x16x512x64 .bf16) (r : Fin 512) (c : Fin 1024) :
    shapeCast S512x1024 (transpose S512x16x64 [1, 0, 2] (shapeCast S16x512x64 a shapeCasts_S1x16x512x64_S16x512x64)
      transposes_S16x512x64_p1_0_2_S512x16x64) shapeCasts_S512x16x64_S512x1024 (ix2 r c)
      = a (ix4 (0 : Fin 1) (Cert.Attn.hd c) r (Cert.Attn.ln c)) := by
  have hr : r.val < 512 := r.isLt
  have hc : c.val < 1024 := c.isLt
  -- [512,1024] at (r, c) reads [512,16,64] at (r, c/64, c%64)
  refine (shapeCast_apply _ _ _ (ix3 r (Cert.Attn.hd c) (Cert.Attn.ln c))
    (by rw [Shape.rowMajor_val_three, Shape.rowMajor_val_two]
        show (r.val * 16 + c.val / 64) * 64 + c.val % 64 = r.val * 1024 + c.val
        omega)).trans ?_
  -- the transpose [1,0,2]: (r,h,d) reads (h,r,d)
  refine (transpose_apply _ _ _ _ (ix3 (Cert.Attn.hd c) r (Cert.Attn.ln c))
    (fun b => match b with | ⟨0, _⟩ => rfl | ⟨1, _⟩ => rfl | ⟨2, _⟩ => rfl)).trans ?_
  -- [16,512,64] at (h,r,d) reads [1,16,512,64] at (0,h,r,d)
  exact shapeCast_apply _ _ _ (ix4 (0 : Fin 1) (Cert.Attn.hd c) r (Cert.Attn.ln c))
    (by rw [Shape.rowMajor_val_four, Shape.rowMajor_val_three]
        show (((0 : ℕ) * 16 + c.val / 64) * 512 + r.val) * 64 + c.val % 64 = (c.val / 64 * 512 + r.val) * 64 + c.val % 64
        omega)

/-- The bias row broadcast to every row of the block. -/
theorem bias_apply (bias : Vec Ideal S1x1024 .f32) (r : Fin 512) (o : Fin 1024) :
    broadcastTo S512x1024 (shapeCast S1x1024 bias shapeCasts_S1x1024_S1x1024) broadcasts_S1x1024_S512x1024 (ix2 r o)
      = bias (ix2 (0 : Fin 1) o) := by
  refine (broadcastTo_apply _ _ _ (ix2 (0 : Fin 1) o) (fun a => match a with
    | ⟨0, _⟩ => by show (0 : ℕ) = if (1 : ℕ) = 1 then 0 else r.val; rw [if_pos rfl]
    | ⟨1, _⟩ => by show o.val = if (1024 : ℕ) = 1 then 0 else o.val; rw [if_neg (by decide)])).trans ?_
  rw [shapeCast_self]

/-- Entry (r, o) of the stored block: the merged row r against row o of the output weights, plus the bias at o. -/
theorem outproj_apply (a : Vec Ideal S1x16x512x64 .bf16) (w : Vec Ideal S1024x1024 .bf16) (bias : Vec Ideal S1x1024 .f32)
    (r : Fin 512) (o : Fin 1024) :
    k2_pay1 (F := Ideal) a w bias (ix3 (0 : Fin 1) r o)
      = (∑ c : Fin 1024, a (ix4 (0 : Fin 1) (Cert.Attn.hd c) r (Cert.Attn.ln c)) * w (ix2 o c)) + bias (ix2 (0 : Fin 1) o) := by
  have hr : r.val < 512 := r.isLt
  have ho : o.val < 1024 := o.isLt
  unfold k2_pay1
  -- [1,512,1024] at (0,r,o) reads [512,1024] at (r,o)
  refine (shapeCast_apply _ _ _ (ix2 r o)
    (by rw [Shape.rowMajor_val_two, Shape.rowMajor_val_three]
        show r.val * 1024 + o.val = ((0 : ℕ) * 512 + r.val) * 1024 + o.val
        omega)).trans ?_
  rw [addf_apply]
  refine congrArg₂ (· + ·) ?_ (bias_apply bias r o)
  refine (Cert.LibMatmul.matmul_zero_sum1 dot_S512x1024_S1024x1024_S512x1024_1_1_0_0_n_n none 1024 rfl rfl _ _ (ix2 r o)
    (fun c => ix2 r c) (fun c => ix2 o c) ?_ ?_).trans ?_
  · intro q k hk
    funext x; apply Fin.ext
    match x with
    | ⟨0, _⟩ => exact lhs2_0 _ _
    | ⟨1, _⟩ => exact (lhs2_1 _ _).trans hk
  · intro q k hk
    funext x; apply Fin.ext
    match x with
    | ⟨0, _⟩ => exact rhs2_0 _ _
    | ⟨1, _⟩ => exact (rhs2_1 _ _).trans hk
  · refine Finset.sum_congr rfl fun c _ => ?_
    have e2 : shapeCast S1024x1024 w shapeCasts_S1024x1024_S1024x1024 (ix2 o c) = w (ix2 o c) := by
      rw [shapeCast_self]
    refine congrArg₂ (· * ·) (merged_apply a r c) e2

end Cert.KernelIdeal.AttnPay

end
-- ==== Proof.KVal2.lean ====
/-
  The output-projection launch, from blocks to arrays. The grid is (batch, row block of 512): point t reads the block
  (b, all 16 heads, rows [512·n, 512·n + 512), all lanes) of the attention output, the whole weights and the whole
  bias row, and writes rows [512·n, 512·n + 512) of batch b of the result. The blocks tile the result, so after the
  launch entry (b, n, o) is the dot product of the 16 heads' rows n laid side by side with row o of the weights, plus
  bias o — of the arrays the launch found.
-/
import proofs.«124630_j25434796327784_2_alg».proof.Proof.Gen.KernelIdeal.Frame
import proofs.«124630_j25434796327784_2_alg».proof.Proof.KPay2
import proofs.«124630_j25434796327784_2_alg».proof.Proof.Spec
import Idealize.ShloMosaic.Lib.Pipeline.Value
import Idealize.ShloMosaic.Lib.ValueIdx

set_option maxRecDepth 16384

noncomputable section

namespace Cert.KernelIdeal.AttnVal2

open Cert.KernelIdeal Cert.KernelIdeal.Gen Cert.KernelIdeal.AttnPay
open Idealize.ShloMosaic Idealize.ShloMosaic.TcCoe Idealize.ShloMosaic.ValueIdx
open Idealize.SL Idealize.SL.Sem
open Idealize.ShloMosaic.Pipeline (Dat Cfg Window)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The projected rows plus the bias, as an array. -/
abbrev outArr (a : S4x16x2048x64.Idx → EReal) (w : S1024x1024.Idx → EReal) (bias : S1x1024.Idx → EReal) : S4x2048x1024.Idx → EReal :=
  fun y => (∑ c : Fin 1024, Cert.Attn.cur4 a (y 0) (Cert.Attn.hd c) (y 1) (Cert.Attn.ln c) * Cert.Attn.cur2 w (y 2) c) + bias (ix2 (0 : Fin 1) (y 2))

/-- The printed index maps, decided over the 16 grid points. -/
theorem idx_facts2 : ∀ t : Fin cfg2.N,
    win2_0.index t (0 : Fin 4) = win2_3.index t (0 : Fin 3) ∧ win2_0.index t (1 : Fin 4) = 0 ∧ win2_0.index t (2 : Fin 4) = win2_3.index t (1 : Fin 3) ∧ win2_0.index t (3 : Fin 4) = 0
    ∧ win2_1.index t (0 : Fin 2) = 0 ∧ win2_1.index t (1 : Fin 2) = 0
    ∧ win2_2.index t (0 : Fin 2) = 0 ∧ win2_2.index t (1 : Fin 2) = 0
    ∧ win2_3.index t (2 : Fin 3) = 0
    ∧ win2_3.index t (0 : Fin 3) ≤ 3 ∧ win2_3.index t (1 : Fin 3) ≤ 3 :=
  (by decide +kernel : ∀ t : Fin grid2.N, _)

/-- Every (batch, row block) is some point's. -/
theorem idx_onto2 : ∀ (q0 : Fin 4) (q1 : Fin 4), ∃ t : Fin cfg2.N, win2_3.index t = ![q0.val, q1.val, 0] :=
  (by decide +kernel : ∀ (q0 : Fin 4) (q1 : Fin 4), ∃ t : Fin grid2.N, win2_3.index t = ![q0.val, q1.val, 0])

/-- The stored block at any of its indices, by the index's coordinates. -/
theorem outproj_at (a : Vec Ideal S1x16x512x64 .bf16) (w : Vec Ideal S1024x1024 .bf16) (bias : Vec Ideal S1x1024 .f32) (j : S1x512x1024.Idx) :
    k2_pay1 (F := Ideal) a w bias j = (∑ c : Fin 1024, a (ix4 (0 : Fin 1) (Cert.Attn.hd c) (j 1) (Cert.Attn.ln c)) * w (ix2 (j 2) c)) + bias (ix2 (0 : Fin 1) (j 2)) := by
  have e : j = ix3 (0 : Fin 1) (j 1) (j 2) := funext fun a => match a with
    | ⟨0, _⟩ => Fin.ext (by have h0 : (j 0).val < 1 := (j 0).isLt; show (j 0).val = 0; omega) | ⟨1, _⟩ => rfl | ⟨2, _⟩ => rfl
  exact (congrArg (k2_pay1 (F := Ideal) a w bias) e).trans (outproj_apply a w bias (j 1) (j 2))

variable (V : (c : Dev nD) → (b : Ref sig .tc) → Buf (Elt Ideal) ((c : Thread nD τ).loc b))

/-- What grid point t writes back is block t of the projected rows plus bias, of the arrays the launch finds. -/
theorem flushed2_3 (c : Dev nD) (t : Fin cfg2.N) :
    (dat2 V c).flushed 3 t = ((cfg2.win 3).blk t).view.read (Elt Ideal) (outArr (V c main_v3) (V c main_v1) (V c main_v4)) := by
  show (cfg2.win 3).cut (grid2.coords t) ((dat2 V c).after 3 t) = _
  rw [after2_3]
  unfold out2_3
  rw [View.canon_unit_zero hz3]
  simp only [View.ld_unit_zero (S := S1x16x512x64) hz4, View.ld_unit_zero (S := S1024x1024) hz2, View.ld_unit_zero (S := S1x1024) hz2]
  obtain ⟨e0, e1, e2, e3, e4, e5, e6, e7, e8, e9, e10⟩ := idx_facts2 t
  funext j
  show k2_pay1 (iblk2 V c 0 t) (iblk2 V c 1 t) (iblk2 V c 2 t) j = outArr (V c main_v3) (V c main_v1) (V c main_v4) (((cfg2.win 3).blk t).view.emb j)
  have hj0 : (j 0).val < 1 := (j 0).isLt
  have hj1 : (j 1).val < 512 := (j 1).isLt
  have hj2 : (j 2).val < 1024 := (j 2).isLt
  refine (outproj_at _ _ _ j).trans ?_
  have hb : iblk2 V c 2 t (ix2 (0 : Fin 1) (j 2)) = V c main_v4 (ix2 (0 : Fin 1) ((((cfg2.win 3).blk t).view.emb j) 2)) := by
    show V c main_v4 (((cfg2.win 2).blk t).view.emb (ix2 (0 : Fin 1) (j 2))) = _
    refine congrArg (V c main_v4) (funext fun a => Fin.ext ?_)
    match a with
    | ⟨0, _⟩ => show win2_2.index t (0 : Fin 2) * 1 + 1 * 0 = 0; omega
    | ⟨1, _⟩ => show win2_2.index t (1 : Fin 2) * 1024 + 1 * (j 2).val = win2_3.index t (2 : Fin 3) * 1024 + 1 * (j 2).val; omega
  rw [hb]
  refine congrArg (· + _) (Finset.sum_congr rfl fun cc _ => ?_)
  have hcc : cc.val < 1024 := cc.isLt
  have ha : iblk2 V c 0 t (ix4 (0 : Fin 1) (Cert.Attn.hd cc) (j 1) (Cert.Attn.ln cc)) = V c main_v3 (ix4 ((((cfg2.win 3).blk t).view.emb j) 0) (Cert.Attn.hd cc) ((((cfg2.win 3).blk t).view.emb j) 1) (Cert.Attn.ln cc)) := by
    show V c main_v3 (((cfg2.win 0).blk t).view.emb (ix4 (0 : Fin 1) (Cert.Attn.hd cc) (j 1) (Cert.Attn.ln cc))) = _
    refine congrArg (V c main_v3) (funext fun a => Fin.ext ?_)
    match a with
    | ⟨0, _⟩ => show win2_0.index t (0 : Fin 4) * 1 + 1 * 0 = win2_3.index t (0 : Fin 3) * 1 + 1 * (j 0).val; omega
    | ⟨1, _⟩ => show win2_0.index t (1 : Fin 4) * 16 + 1 * (cc.val / 64) = cc.val / 64; omega
    | ⟨2, _⟩ => show win2_0.index t (2 : Fin 4) * 512 + 1 * (j 1).val = win2_3.index t (1 : Fin 3) * 512 + 1 * (j 1).val; omega
    | ⟨3, _⟩ => show win2_0.index t (3 : Fin 4) * 64 + 1 * (cc.val % 64) = cc.val % 64; omega
  have hw : iblk2 V c 1 t (ix2 (j 2) cc) = V c main_v1 (ix2 ((((cfg2.win 3).blk t).view.emb j) 2) cc) := by
    show V c main_v1 (((cfg2.win 1).blk t).view.emb (ix2 (j 2) cc)) = _
    refine congrArg (V c main_v1) (funext fun a => Fin.ext ?_)
    match a with
    | ⟨0, _⟩ => show win2_1.index t (0 : Fin 2) * 1024 + 1 * (j 2).val = win2_3.index t (2 : Fin 3) * 1024 + 1 * (j 2).val; omega
    | ⟨1, _⟩ => show win2_1.index t (1 : Fin 2) * 1024 + 1 * cc.val = cc.val; omega
  rw [ha, hw]
  rfl

/-- An index of the array is in point t's block iff each coordinate is in the block's range on its axis. -/
theorem mem_blk2_3 (t : Fin cfg2.N) (i : S4x2048x1024.Idx) :
    i ∈ ((cfg2.win 3).blk t).view.set ↔ ∀ a : Fin 3, win2_3.index t a * S1x512x1024.size a ≤ (i a).val ∧ (i a).val < win2_3.index t a * S1x512x1024.size a + S1x512x1024.size a := by
  show i ∈ ((View.whole main_v5).slice (win2_3.rect t)).set ↔ _
  rw [View.set_slice_whole, Rect.mem_set_unit]
  exact Iff.rfl

/-- Every index of the result is in the block of the point (batch, row / 512). -/
theorem covered2_3 (i : S4x2048x1024.Idx) : ∃ t : Fin cfg2.N, (cfg2.win 3).flush t = true ∧ i ∈ ((cfg2.win 3).blk t).view.set := by
  have hi0 : (i 0).val < 4 := (i 0).isLt
  have hi1 : (i 1).val < 2048 := (i 1).isLt
  have hi2 : (i 2).val < 1024 := (i 2).isLt
  obtain ⟨t, ht⟩ := idx_onto2 ⟨(i 0).val, hi0⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_blk2_3]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 1024 ≤ (i 2).val ∧ (i 2).val < win2_3.index t (2 : Fin 3) * 1024 + 1024; omega

/-- After the launch the result array is the projected rows plus bias, whole. -/
theorem final2_3 (c : Dev nD) : (dat2 V c).arrAt 3 cfg2.N = outArr (V c main_v3) (V c main_v1) (V c main_v4) :=
  (dat2 V c).arrAt_eq_of_cover 3 _ (fun t _ => flushed2_3 V c t) covered2_3

end Cert.KernelIdeal.AttnVal2

end
-- ==== Proof.KHost.lean ====
/-
  The kernel program's buffers at the boundaries of its five segments, read back to the launch memory and to what the
  three launches leave.

  Before the first launch two format changes copy w_qkv and w_proj (at the extended reals a format change is the
  identity); between the second and third launch a reshape turns the bias [1024] into [1, 1024].  No other buffer is
  written outside a launch, and a launch writes its output arrays only.
-/
import proofs.«124630_j25434796327784_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.AttnHost

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ) (ρ : Dev nD → PrngReg)

/-- x is not written before the first launch. -/
theorem V1_arg0 (c : Dev nD) : V1 m ρ c main_arg0 = m ((c : Thread nD τ).loc main_arg0) := by
  dsimp only [V1, W1, hostOps0]
  after_results

/-- The first format change: the copy of w_qkv is w_qkv. -/
theorem V1_v0 (c : Dev nD) : (V1 m ρ c main_v0 : S3072x1024.Idx → EReal) = m ((c : Thread nD τ).loc main_arg1) := by
  dsimp only [V1, W1, hostOps0]
  after_results
  rfl

/-- After the first launch its three outputs hold what its write-backs leave. -/
theorem V2_q (c : Dev nD) : V2 m ρ c main_v2_0 = (dat0 (V1 m ρ) c).arrAt 2 cfg0.N := W2_arr m ρ c 2
theorem V2_k (c : Dev nD) : V2 m ρ c main_v2_1 = (dat0 (V1 m ρ) c).arrAt 3 cfg0.N := W2_arr m ρ c 3
theorem V2_v (c : Dev nD) : V2 m ρ c main_v2_2 = (dat0 (V1 m ρ) c).arrAt 4 cfg0.N := W2_arr m ρ c 4

/-- The reshape between the second and third launch does not write the second launch's output. -/
theorem V4_v3 (c : Dev nD) : V4 m ρ c main_v3 = (dat1 (V2 m ρ) c).arrAt 3 cfg1.N := by
  have e : V4 m ρ c main_v3 = W3 m ρ c (Proc.devRef .tc main_v3) := by
    dsimp only [V4, W4, hostOps2]
    after_results
  exact e.trans (W3_arr m ρ c 3)

/-- The copy of w_proj is w_proj, and nothing after the second format change writes it before the third launch. -/
theorem V4_v1 (c : Dev nD) : (V4 m ρ c main_v1 : S1024x1024.Idx → EReal) = m ((c : Thread nD τ).loc main_arg2) := by
  have e4 : V4 m ρ c main_v1 = W3 m ρ c (Proc.devRef .tc main_v1) := by
    dsimp only [V4, W4, hostOps2]
    after_results
  have e3 : W3 m ρ c (Proc.devRef .tc main_v1) = W2 m ρ c (Proc.devRef .tc main_v1) := W3_of_ne m ρ c main_v1 (by decide)
  have e2 : W2 m ρ c (Proc.devRef .tc main_v1) = W1 m ρ c (Proc.devRef .tc main_v1) := W2_of_ne m ρ c main_v1 (by decide)
  have e1 : (W1 m ρ c (Proc.devRef .tc main_v1) : S1024x1024.Idx → EReal) = m ((c : Thread nD τ).loc main_arg2) := by
    dsimp only [W1, hostOps0]
    after_results
    rfl
  exact (e4.trans (e3.trans e2)).trans e1

/-- The bias is not written before the reshape. -/
theorem W3_arg3 (c : Dev nD) : W3 m ρ c (Proc.devRef .tc main_arg3) = m ((c : Thread nD τ).loc main_arg3) := by
  have e3 : W3 m ρ c (Proc.devRef .tc main_arg3) = W2 m ρ c (Proc.devRef .tc main_arg3) := W3_of_ne m ρ c main_arg3 (by decide)
  have e2 : W2 m ρ c (Proc.devRef .tc main_arg3) = W1 m ρ c (Proc.devRef .tc main_arg3) := W2_of_ne m ρ c main_arg3 (by decide)
  have e1 : W1 m ρ c (Proc.devRef .tc main_arg3) = m ((c : Thread nD τ).loc main_arg3) := by
    dsimp only [W1, hostOps0]
    after_results
  exact (e3.trans e2).trans e1

/-- The reshaped bias read at (0, o) is the bias at o. -/
theorem V4_v4 (c : Dev nD) (o : Fin 1024) :
    (V4 m ρ c main_v4 : S1x1024.Idx → EReal) (ValueIdx.ix2 (0 : Fin 1) o) = m ((c : Thread nD τ).loc main_arg3) (ValueIdx.ix1 o) := by
  have e : (V4 m ρ c main_v4 : S1x1024.Idx → EReal) = shapeCast S1x1024 (W3 m ρ c (Proc.devRef .tc main_arg3) : S1024.Idx → EReal) shapeCasts_S1024_S1x1024 := by
    dsimp only [V4, W4, hostOps2]
    after_results
    rfl
  rw [e, W3_arg3]
  refine shapeCast_apply _ _ _ (ValueIdx.ix1 o) ?_
  rw [Shape.rowMajor_val_one, Shape.rowMajor_val_two]
  show o.val = (0 : Fin 1).val * 1024 + o.val
  simp

/-- The third launch's output holds what its write-backs leave. -/
theorem W5_out (c : Dev nD) : W5 m ρ c (Proc.devRef .tc main_v5) = (dat2 (V4 m ρ) c).arrAt 3 cfg2.N := W5_arr m ρ c 3

end Cert.KernelIdeal.AttnHost

end
-- ==== Proof.KValue.lean ====
/-
  The kernel program's result as one function of its four argument arrays. Walking the fold of the five segments back:
  the result buffer holds what the third launch leaves, the projected attention rows plus bias, of the second launch's
  output, w_proj and the reshaped bias; the second launch's output is the attention of the first launch's three
  outputs; those are the three parts of the projection of x and w_qkv. Index by index this is the kernel's spelling
  of the specification.
-/
import proofs.«124630_j25434796327784_2_alg».proof.Proof.KRun
import proofs.«124630_j25434796327784_2_alg».proof.Proof.KVal0
import proofs.«124630_j25434796327784_2_alg».proof.Proof.KVal1
import proofs.«124630_j25434796327784_2_alg».proof.Proof.KVal2
import proofs.«124630_j25434796327784_2_alg».proof.Proof.KHost
import proofs.«124630_j25434796327784_2_alg».proof.Proof.Spec

set_option maxRecDepth 16384

noncomputable section

namespace Cert.KernelIdeal.AttnValue

open Cert.KernelIdeal Cert.KernelIdeal.Gen Cert.KernelIdeal.AttnHost
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The kernel's spelling of the specification of the launch arrays, as an array. -/
abbrev result (c : Dev nD) : S4x2048x1024.Idx → EReal := fun y =>
  Cert.Attn.outK (Cert.Attn.cur3 (m ((c : Thread nD τ).loc main_arg0))) (Cert.Attn.cur2 (m ((c : Thread nD τ).loc main_arg1)))
    (Cert.Attn.cur2 (m ((c : Thread nD τ).loc main_arg2))) (Cert.Attn.cur1 (m ((c : Thread nD τ).loc main_arg3))) (y 0) (y 1) (y 2)

/-- The second launch's output at the third launch's entry: the attention of the three parts of the projection. -/
theorem attn_eq (c : Dev nD) :
    (V4 m ρ c main_v3 : S4x16x2048x64.Idx → EReal)
      = AttnVal1.attnArr (AttnVal0.projArr (m ((c : Thread nD τ).loc main_arg0)) (m ((c : Thread nD τ).loc main_arg1)) 0)
          (AttnVal0.projArr (m ((c : Thread nD τ).loc main_arg0)) (m ((c : Thread nD τ).loc main_arg1)) 1)
          (AttnVal0.projArr (m ((c : Thread nD τ).loc main_arg0)) (m ((c : Thread nD τ).loc main_arg1)) 2) := by
  rw [V4_v3, AttnVal1.final1_3 (V2 m ρ) c, V2_q, V2_k, V2_v,
    AttnVal0.final0_2 (V1 m ρ) c, AttnVal0.final0_3 (V1 m ρ) c, AttnVal0.final0_4 (V1 m ρ) c, V1_arg0, V1_v0]

/-- The result buffer after the run. -/
theorem final (c : Dev nD) : W5 m ρ c (Proc.devRef .tc main_v5) = result m c := by
  rw [W5_out, AttnVal2.final2_3 (V4 m ρ) c]
  funext y
  show (∑ cc : Fin 1024, Cert.Attn.cur4 (V4 m ρ c main_v3) (y 0) (Cert.Attn.hd cc) (y 1) (Cert.Attn.ln cc) * Cert.Attn.cur2 (V4 m ρ c main_v1) (y 2) cc)
      + (V4 m ρ c main_v4 : S1x1024.Idx → EReal) (ix2 (0 : Fin 1) (y 2)) = _
  rw [V4_v4 m ρ c (y 2), attn_eq m ρ c, V4_v1 m ρ c]
  rfl

/-- The run, read: the result array is the kernel's spelling of the specification; the arguments are unchanged. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m ρ c), (h c).2⟩) (Cert.KernelIdeal.AttnRun.run_named (F := Ideal) m ρ)

end Cert.KernelIdeal.AttnValue

end
-- ==== Proof.RefValue.lean ====
/-
  The reference program, read at one element of each stage, is the specification's second spelling: the query is
  scaled before the score, the row maximum is taken once more against −∞, and the weights are divided by 0 + their
  sum before they meet the values. Every stage is read at explicit coordinates (batch b, head h, rows i j, lane d),
  and the layout stages' composed indices are identified coordinate by coordinate.
-/
import proofs.«124630_j25434796327784_2_alg».proof.Proof.Spec
import proofs.«124630_j25434796327784_2_alg».proof.Proof.Gen.ReferenceIdeal.Read
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Attn

/-- The argument arrays' types. -/
abbrev TX := (⟨S4x2048x1024, .f32⟩ : BufTy).Contents (Elt Ideal)
abbrev TWq := (⟨S3072x1024, .f32⟩ : BufTy).Contents (Elt Ideal)
abbrev TWp := (⟨S1024x1024, .f32⟩ : BufTy).Contents (Elt Ideal)
abbrev TB := (⟨S1024, .f32⟩ : BufTy).Contents (Elt Ideal)

/-! ## The layout stages' indices, coordinate by coordinate -/

/-- Dropping the leading unit axis: (b, h, n, d) of [4,16,2048,64] is (0, b, h, n, d) of [1,4,16,2048,64]. -/
theorem idx4_eq (b : Fin 4) (h : Fin 16) (n : Fin 2048) (d : Fin 64) :
    idx_main_v4 (ix4 b h n d) = ix5 (0 : Fin 1) b h n d := by
  have hb := b.isLt; have hh := h.isLt; have hn := n.isLt; have hd := d.isLt
  funext a
  match a with
  | ⟨0, _⟩ => rfl
  | ⟨1, _⟩ => exact Fin.ext (by show (((b.val * 16 + h.val) * 2048 + n.val) * 64 + d.val) / 2097152 % 4 = b.val; omega)
  | ⟨2, _⟩ => exact Fin.ext (by show (((b.val * 16 + h.val) * 2048 + n.val) * 64 + d.val) / 131072 % 16 = h.val; omega)
  | ⟨3, _⟩ => exact Fin.ext (by show (((b.val * 16 + h.val) * 2048 + n.val) * 64 + d.val) / 64 % 2048 = n.val; omega)
  | ⟨4, _⟩ => exact Fin.ext (by show (((b.val * 16 + h.val) * 2048 + n.val) * 64 + d.val) % 64 = d.val; omega)

/-- The same for the other two parts' reshapes (the three index functions are one function). -/
theorem idx8_eq (b : Fin 4) (h : Fin 16) (n : Fin 2048) (d : Fin 64) :
    idx_main_v8 (ix4 b h n d) = ix5 (0 : Fin 1) b h n d := idx4_eq b h n d
theorem idx10_eq (b : Fin 4) (h : Fin 16) (n : Fin 2048) (d : Fin 64) :
    idx_main_v10 (ix4 b h n d) = ix5 (0 : Fin 1) b h n d := idx4_eq b h n d

/-- The three slices: part s of the stacked array. -/
theorem idx3_eq (b : Fin 4) (h : Fin 16) (n : Fin 2048) (d : Fin 64) :
    idx_main_v3 (ix5 (0 : Fin 1) b h n d) = ix5 (0 : Fin 3) b h n d := by
  funext a
  match a with
  | ⟨0, _⟩ => rfl
  | ⟨1, _⟩ => rfl
  | ⟨2, _⟩ => rfl
  | ⟨3, _⟩ => rfl
  | ⟨4, _⟩ => rfl
theorem idx7_eq (b : Fin 4) (h : Fin 16) (n : Fin 2048) (d : Fin 64) :
    idx_main_v7 (ix5 (0 : Fin 1) b h n d) = ix5 (1 : Fin 3) b h n d := by
  funext a
  match a with
  | ⟨0, _⟩ => rfl
  | ⟨1, _⟩ => rfl
  | ⟨2, _⟩ => rfl
  | ⟨3, _⟩ => rfl
  | ⟨4, _⟩ => rfl
theorem idx9_eq (b : Fin 4) (h : Fin 16) (n : Fin 2048) (d : Fin 64) :
    idx_main_v9 (ix5 (0 : Fin 1) b h n d) = ix5 (2 : Fin 3) b h n d := by
  funext a
  match a with
  | ⟨0, _⟩ => rfl
  | ⟨1, _⟩ => rfl
  | ⟨2, _⟩ => rfl
  | ⟨3, _⟩ => rfl
  | ⟨4, _⟩ => rfl

/-- The transpose [2, 0, 3, 1, 4]: (s, b, h, n, d) reads (b, n, s, h, d). -/
theorem idx2_eq (s : Fin 3) (b : Fin 4) (h : Fin 16) (n : Fin 2048) (d : Fin 64) :
    idx_main_v2 (ix5 s b h n d) = ix5 b n s h d := by
  funext a
  match a with
  | ⟨0, _⟩ => rfl
  | ⟨1, _⟩ => rfl
  | ⟨2, _⟩ => rfl
  | ⟨3, _⟩ => rfl
  | ⟨4, _⟩ => rfl

/-- The reshape [4,2048,3072] → [4,2048,3,16,64]: (b, n, s, h, d) reads column s·1024 + h·64 + d of row (b, n). -/
theorem idx1_eq (b : Fin 4) (n : Fin 2048) (s : Fin 3) (h : Fin 16) (d : Fin 64) :
    idx_main_v1 (ix5 b n s h d) = ix3 b n (wrow s h d) := by
  have hb := b.isLt; have hn := n.isLt; have hs := s.isLt; have hh := h.isLt; have hd := d.isLt
  funext a
  match a with
  | ⟨0, _⟩ => exact Fin.ext (by show ((((b.val * 2048 + n.val) * 3 + s.val) * 16 + h.val) * 64 + d.val) / 6291456 = b.val; omega)
  | ⟨1, _⟩ => exact Fin.ext (by show ((((b.val * 2048 + n.val) * 3 + s.val) * 16 + h.val) * 64 + d.val) / 3072 % 2048 = n.val; omega)
  | ⟨2, _⟩ => exact Fin.ext (by show ((((b.val * 2048 + n.val) * 3 + s.val) * 16 + h.val) * 64 + d.val) % 3072 = s.val * 1024 + h.val * 64 + d.val; omega)

/-- The first product's operand indices: row (b, n) of x against row r of w_qkv. -/
theorem lidx0_eq (b : Fin 4) (n : Fin 2048) (r : Fin 3072) (k : Fin 1024) :
    lidx_main_v0 (ix3 b n r) k = ix3 b n k := by
  funext a
  match a with
  | ⟨0, _⟩ => rfl
  | ⟨1, _⟩ => rfl
  | ⟨2, _⟩ => rfl
theorem ridx0_eq (b : Fin 4) (n : Fin 2048) (r : Fin 3072) (k : Fin 1024) :
    ridx_main_v0 (ix3 b n r) k = ix2 r k := by
  funext a
  match a with
  | ⟨0, _⟩ => rfl
  | ⟨1, _⟩ => rfl

/-! ## The projections -/

/-- The stacked projection at (s, b, h, n, d): row (b, n) of x against row s·1024 + h·64 + d of w_qkv. -/
theorem v2_eq (x0 : TX) (x1 : TWq) (s : Fin 3) (b : Fin 4) (h : Fin 16) (n : Fin 2048) (d : Fin 64) :
    val_main_v2 (F := Ideal) x0 x1 (ix5 s b h n d) = proj (cur3 x0) (cur2 x1) s b h n d := by
  rw [val_main_v2_apply, idx2_eq, val_main_v1_apply, idx1_eq, val_main_v0_apply]
  refine Finset.sum_congr rfl fun k _ => ?_
  rw [lidx0_eq, ridx0_eq]
  rfl

/-- The query part. -/
theorem v4_eq (x0 : TX) (x1 : TWq) (b : Fin 4) (h : Fin 16) (n : Fin 2048) (d : Fin 64) :
    val_main_v4 (F := Ideal) x0 x1 (ix4 b h n d) = proj (cur3 x0) (cur2 x1) 0 b h n d := by
  rw [val_main_v4_apply, idx4_eq, val_main_v3_apply, idx3_eq, v2_eq]
/-- The key part. -/
theorem v8_eq (x0 : TX) (x1 : TWq) (b : Fin 4) (h : Fin 16) (n : Fin 2048) (d : Fin 64) :
    val_main_v8 (F := Ideal) x0 x1 (ix4 b h n d) = proj (cur3 x0) (cur2 x1) 1 b h n d := by
  rw [val_main_v8_apply, idx8_eq, val_main_v7_apply, idx7_eq, v2_eq]
/-- The value part. -/
theorem v10_eq (x0 : TX) (x1 : TWq) (b : Fin 4) (h : Fin 16) (n : Fin 2048) (d : Fin 64) :
    val_main_v10 (F := Ideal) x0 x1 (ix4 b h n d) = proj (cur3 x0) (cur2 x1) 2 b h n d := by
  rw [val_main_v10_apply, idx10_eq, val_main_v9_apply, idx9_eq, v2_eq]

/-! ## The scores -/

/-- The broadcast scale is the scale everywhere. -/
theorem v5_eq (y : S4x16x2048x64.Idx) : val_main_v5 (F := Ideal) y = scale := by
  rw [val_main_v5_apply, val_main_cst_apply]
  rfl

/-- The scaled query. -/
theorem v6_eq (x0 : TX) (x1 : TWq) (b : Fin 4) (h : Fin 16) (n : Fin 2048) (d : Fin 64) :
    val_main_v6 (F := Ideal) x0 x1 (ix4 b h n d) = proj (cur3 x0) (cur2 x1) 0 b h n d * scale := by
  rw [val_main_v6_apply, v4_eq, v5_eq]
  rfl

/-- The score product's operand indices: query row i and key row j of (b, h). -/
theorem lidx11_eq (b : Fin 4) (h : Fin 16) (i j : Fin 2048) (k : Fin 64) :
    lidx_main_v11 (ix4 b h i j) k = ix4 b h i k := by
  funext a
  match a with
  | ⟨0, _⟩ => rfl
  | ⟨1, _⟩ => rfl
  | ⟨2, _⟩ => rfl
  | ⟨3, _⟩ => rfl
theorem ridx11_eq (b : Fin 4) (h : Fin 16) (i j : Fin 2048) (k : Fin 64) :
    ridx_main_v11 (ix4 b h i j) k = ix4 b h j k := by
  funext a
  match a with
  | ⟨0, _⟩ => rfl
  | ⟨1, _⟩ => rfl
  | ⟨2, _⟩ => rfl
  | ⟨3, _⟩ => rfl

/-- The score of query row i against key row j. -/
theorem v11_eq (x0 : TX) (x1 : TWq) (b : Fin 4) (h : Fin 16) (i j : Fin 2048) :
    val_main_v11 (F := Ideal) x0 x1 (ix4 b h i j)
      = scoreR (proj (cur3 x0) (cur2 x1) 0) (proj (cur3 x0) (cur2 x1) 1) b h i j := by
  rw [val_main_v11_apply]
  refine Finset.sum_congr rfl fun k _ => ?_
  rw [lidx11_eq, ridx11_eq, v6_eq, v8_eq]

/-! ## The row maximum -/

/-- The shape fact that names the index with the key coordinate inserted. -/
theorem reduces3 : Shape.Reduces S4x16x2048x2048 [3] S4x16x2048 := by decide

/-- (b, h, i) with the key coordinate j inserted on the last axis is (b, h, i, j). -/
theorem lift_eq (b : Fin 4) (h : Fin 16) (i j : Fin 2048) :
    reduces3.lift (ix3 b h i) j = ix4 b h i j := by
  funext a
  match a with
  | ⟨0, _⟩ => exact Fin.ext rfl
  | ⟨1, _⟩ => exact Fin.ext rfl
  | ⟨2, _⟩ => exact Fin.ext rfl
  | ⟨3, _⟩ => exact Fin.ext rfl

/-- The reduction is the fold of max from −∞ over the keys. -/
theorem v12_eq (x0 : TX) (x1 : TWq) (b : Fin 4) (h : Fin 16) (i : Fin 2048) :
    val_main_v12 (F := Ideal) x0 x1 (ix3 b h i)
      = rowmax (scoreR (proj (cur3 x0) (cur2 x1) 0) (proj (cur3 x0) (cur2 x1) 1) b h i) := by
  unfold val_main_v12
  rw [Host.reduce_eq_fold_single FloatOps.maximumf _ _ reducesTo_S4x16x2048x2048_S4x16x2048_d3 reduces3 h_S_]
  have hf : (val_main_v11 (F := Ideal) x0 x1 ∘ reduces3.lift (ix3 b h i))
      = scoreR (proj (cur3 x0) (cur2 x1) 0) (proj (cur3 x0) (cur2 x1) 1) b h i := funext fun j =>
    (congrArg (val_main_v11 (F := Ideal) x0 x1) (lift_eq b h i j)).trans (v11_eq x0 x1 b h i j)
  rw [hf]
  rfl

/-- The broadcast −∞. -/
theorem v13_eq (y : S4x16x2048.Idx) : val_main_v13 (F := Ideal) y = negInf := by
  rw [val_main_v13_apply, val_main_cst_1_apply]
  rfl

/-- The maximum taken once more against −∞. -/
theorem v14_eq (x0 : TX) (x1 : TWq) (b : Fin 4) (h : Fin 16) (i : Fin 2048) :
    val_main_v14 (F := Ideal) x0 x1 (ix3 b h i)
      = max negInf (rowmax (scoreR (proj (cur3 x0) (cur2 x1) 0) (proj (cur3 x0) (cur2 x1) 1) b h i)) := by
  rw [val_main_v14_apply, v13_eq, v12_eq]
  rfl

/-- Broadcasting a row statistic along the keys: (b, h, i, j) reads (b, h, i, 0), which reads (b, h, i). -/
theorem idx16_eq (b : Fin 4) (h : Fin 16) (i j : Fin 2048) :
    idx_main_v16 (ix4 b h i j) = ix4 b h i (0 : Fin 1) := by
  funext a
  match a with
  | ⟨0, _⟩ => rfl
  | ⟨1, _⟩ => rfl
  | ⟨2, _⟩ => rfl
  | ⟨3, _⟩ => rfl
theorem idx15_eq (b : Fin 4) (h : Fin 16) (i : Fin 2048) (z : Fin 1) :
    idx_main_v15 (ix4 b h i z) = ix3 b h i := by
  funext a
  match a with
  | ⟨0, _⟩ => rfl
  | ⟨1, _⟩ => rfl
  | ⟨2, _⟩ => rfl
theorem idx21_eq (b : Fin 4) (h : Fin 16) (i j : Fin 2048) :
    idx_main_v21 (ix4 b h i j) = ix4 b h i (0 : Fin 1) := idx16_eq b h i j
theorem idx20_eq (b : Fin 4) (h : Fin 16) (i : Fin 2048) (z : Fin 1) :
    idx_main_v20 (ix4 b h i z) = ix3 b h i := idx15_eq b h i z

/-! ## The weights -/

/-- exp of the score less the row's maximum. -/
theorem v18_eq (x0 : TX) (x1 : TWq) (b : Fin 4) (h : Fin 16) (i j : Fin 2048) :
    val_main_v18 (F := Ideal) x0 x1 (ix4 b h i j)
      = weightR (proj (cur3 x0) (cur2 x1) 0) (proj (cur3 x0) (cur2 x1) 1) b h i j := by
  rw [val_main_v18_apply, val_main_v17_apply, v11_eq, val_main_v16_apply, idx16_eq, val_main_v15_apply, idx15_eq, v14_eq]
  rfl

/-- The row sum's operand index. -/
theorem idx19_eq (b : Fin 4) (h : Fin 16) (i k : Fin 2048) :
    idx_main_v19 (ix3 b h i) k = ix4 b h i k := by
  funext a
  match a with
  | ⟨0, _⟩ => rfl
  | ⟨1, _⟩ => rfl
  | ⟨2, _⟩ => rfl
  | ⟨3, _⟩ => rfl

/-- The row sum, started from the zero word. -/
theorem v19_eq (x0 : TX) (x1 : TWq) (b : Fin 4) (h : Fin 16) (i : Fin 2048) :
    val_main_v19 (F := Ideal) x0 x1 (ix3 b h i)
      = zero + ∑ j : Fin 2048, weightR (proj (cur3 x0) (cur2 x1) 0) (proj (cur3 x0) (cur2 x1) 1) b h i j := by
  rw [val_main_v19_apply, val_main_cst_2_apply]
  refine congrArg₂ (· + ·) rfl (Finset.sum_congr rfl fun k _ => ?_)
  rw [idx19_eq, v18_eq]

/-- The normalized weight. -/
theorem v22_eq (x0 : TX) (x1 : TWq) (b : Fin 4) (h : Fin 16) (i j : Fin 2048) :
    val_main_v22 (F := Ideal) x0 x1 (ix4 b h i j)
      = Ideal.div (weightR (proj (cur3 x0) (cur2 x1) 0) (proj (cur3 x0) (cur2 x1) 1) b h i j)
          (zero + ∑ j' : Fin 2048, weightR (proj (cur3 x0) (cur2 x1) 0) (proj (cur3 x0) (cur2 x1) 1) b h i j') := by
  rw [val_main_v22_apply, v18_eq, val_main_v21_apply, idx21_eq, val_main_v20_apply, idx20_eq, v19_eq]
  rfl

/-! ## The attention rows -/

/-- The value product's operand indices: weight row (b, h, i) against value column d. -/
theorem lidx23_eq (b : Fin 4) (h : Fin 16) (i : Fin 2048) (d : Fin 64) (k : Fin 2048) :
    lidx_main_v23 (ix4 b h i d) k = ix4 b h i k := by
  funext a
  match a with
  | ⟨0, _⟩ => rfl
  | ⟨1, _⟩ => rfl
  | ⟨2, _⟩ => rfl
  | ⟨3, _⟩ => rfl
theorem ridx23_eq (b : Fin 4) (h : Fin 16) (i : Fin 2048) (d : Fin 64) (k : Fin 2048) :
    ridx_main_v23 (ix4 b h i d) k = ix4 b h k d := by
  funext a
  match a with
  | ⟨0, _⟩ => rfl
  | ⟨1, _⟩ => rfl
  | ⟨2, _⟩ => rfl
  | ⟨3, _⟩ => rfl

theorem v23_eq (x0 : TX) (x1 : TWq) (b : Fin 4) (h : Fin 16) (i : Fin 2048) (d : Fin 64) :
    val_main_v23 (F := Ideal) x0 x1 (ix4 b h i d)
      = attnR (proj (cur3 x0) (cur2 x1) 0) (proj (cur3 x0) (cur2 x1) 1) (proj (cur3 x0) (cur2 x1) 2) b h i d := by
  rw [val_main_v23_apply]
  refine Finset.sum_congr rfl fun k _ => ?_
  rw [lidx23_eq, ridx23_eq, v22_eq, v10_eq]

/-! ## The merged heads and the output projection -/

/-- The transpose [0, 2, 1, 3]: (b, n, h, d) reads (b, h, n, d). -/
theorem idx24_eq (b : Fin 4) (n : Fin 2048) (h : Fin 16) (d : Fin 64) :
    idx_main_v24 (ix4 b n h d) = ix4 b h n d := by
  funext a
  match a with
  | ⟨0, _⟩ => rfl
  | ⟨1, _⟩ => rfl
  | ⟨2, _⟩ => rfl
  | ⟨3, _⟩ => rfl

/-- The reshape [4,2048,16,64] → [4,2048,1024]: column c reads head c / 64, lane c % 64. -/
theorem idx25_eq (b : Fin 4) (n : Fin 2048) (c : Fin 1024) :
    idx_main_v25 (ix3 b n c) = ix4 b n (hd c) (ln c) := by
  have hb := b.isLt; have hn := n.isLt; have hc := c.isLt
  funext a
  match a with
  | ⟨0, _⟩ => exact Fin.ext (by show ((b.val * 2048 + n.val) * 1024 + c.val) / 2097152 = b.val; omega)
  | ⟨1, _⟩ => exact Fin.ext (by show ((b.val * 2048 + n.val) * 1024 + c.val) / 1024 % 2048 = n.val; omega)
  | ⟨2, _⟩ => exact Fin.ext (by show ((b.val * 2048 + n.val) * 1024 + c.val) / 64 % 16 = c.val / 64; omega)
  | ⟨3, _⟩ => exact Fin.ext (by show ((b.val * 2048 + n.val) * 1024 + c.val) % 64 = c.val % 64; omega)

/-- The heads' rows laid side by side. -/
theorem v25_eq (x0 : TX) (x1 : TWq) (b : Fin 4) (n : Fin 2048) (c : Fin 1024) :
    val_main_v25 (F := Ideal) x0 x1 (ix3 b n c)
      = attnR (proj (cur3 x0) (cur2 x1) 0) (proj (cur3 x0) (cur2 x1) 1) (proj (cur3 x0) (cur2 x1) 2) b (hd c) n (ln c) := by
  rw [val_main_v25_apply, idx25_eq, val_main_v24_apply, idx24_eq, v23_eq]

/-- The output product's operand indices: merged row (b, n) against row o of w_proj. -/
theorem lidx26_eq (b : Fin 4) (n : Fin 2048) (o k : Fin 1024) :
    lidx_main_v26 (ix3 b n o) k = ix3 b n k := by
  funext a
  match a with
  | ⟨0, _⟩ => rfl
  | ⟨1, _⟩ => rfl
  | ⟨2, _⟩ => rfl
theorem ridx26_eq (b : Fin 4) (n : Fin 2048) (o k : Fin 1024) :
    ridx_main_v26 (ix3 b n o) k = ix2 o k := by
  funext a
  match a with
  | ⟨0, _⟩ => rfl
  | ⟨1, _⟩ => rfl

/-- The bias broadcast along batch and row: (b, n, o) reads (0, 0, o), which reads o. -/
theorem idx28_eq (b : Fin 4) (n : Fin 2048) (o : Fin 1024) :
    idx_main_v28 (ix3 b n o) = ix3 (0 : Fin 1) (0 : Fin 1) o := by
  funext a
  match a with
  | ⟨0, _⟩ => rfl
  | ⟨1, _⟩ => rfl
  | ⟨2, _⟩ => rfl
theorem idx27_eq (z z' : Fin 1) (o : Fin 1024) :
    idx_main_v27 (ix3 z z' o) = ix1 o := by
  funext a
  match a with
  | ⟨0, _⟩ => rfl

theorem v28_eq (x3 : TB) (b : Fin 4) (n : Fin 2048) (o : Fin 1024) :
    val_main_v28 (F := Ideal) x3 (ix3 b n o) = cur1 x3 o := by
  rw [val_main_v28_apply, idx28_eq, val_main_v27_apply, idx27_eq]
  rfl

theorem v26_eq (x0 : TX) (x1 : TWq) (x2 : TWp) (b : Fin 4) (n : Fin 2048) (o : Fin 1024) :
    val_main_v26 (F := Ideal) x0 x1 x2 (ix3 b n o)
      = ∑ c : Fin 1024, attnR (proj (cur3 x0) (cur2 x1) 0) (proj (cur3 x0) (cur2 x1) 1) (proj (cur3 x0) (cur2 x1) 2) b (hd c) n (ln c)
          * cur2 x2 o c := by
  rw [val_main_v26_apply]
  refine Finset.sum_congr rfl fun k _ => ?_
  rw [lidx26_eq, ridx26_eq, v25_eq]
  rfl

/-- The reference's result at (b, n, o) is the specification's second spelling of the argument arrays. -/
theorem ref_eq (x0 : (⟨S4x2048x1024, .f32⟩ : BufTy).Contents (Elt Ideal)) (x1 : (⟨S3072x1024, .f32⟩ : BufTy).Contents (Elt Ideal))
    (x2 : (⟨S1024x1024, .f32⟩ : BufTy).Contents (Elt Ideal)) (x3 : (⟨S1024, .f32⟩ : BufTy).Contents (Elt Ideal))
    (b : Fin 4) (n : Fin 2048) (o : Fin 1024) :
    Read.val_main_v29 (F := Ideal) x0 x1 x2 x3 (ix3 b n o)
      = Cert.Attn.outR (Cert.Attn.cur3 x0) (Cert.Attn.cur2 x1) (Cert.Attn.cur2 x2) (Cert.Attn.cur1 x3) b n o := by
  rw [val_main_v29_apply, v26_eq, v28_eq]
  rfl

end Cert.ReferenceIdeal.RefValue

end
-- ==== Proof.Algebra.lean ====
/-
  The two spellings of the attention output agree on real-valued inputs.

  With every entry of x and of w_qkv a real, every projection entry is a real (a finite sum of products of reals),
  the scale 2⁻³ is a real, so every score is a real and the two scores agree (the scale commutes out of the sum).
  The row maximum of 2048 real scores, folded from −∞, is a real, and max(−∞, ·) leaves it alone.  Each weight is
  then exp of a real, a positive real, and the sum of the 2048 weights is a positive real L.  Division by L is the
  product with the real 1/L, and (Σ_j p_j·v_j)·(1/L) = Σ_j (p_j·(1/L))·v_j holds in the reals.
-/
import proofs.«124630_j25434796327784_2_alg».proof.Proof.Spec

noncomputable section

namespace Cert.Attn

open Idealize.ShloMosaic

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale is the real 2⁻³. -/
theorem scale_eq : scale = ((0.125 : ℝ) : EReal) := by
  simp [scale, Ideal.ofBits, Ideal.ieee, -EReal.coe_mul]; norm_num

/-- The word of −∞ is ⊥. -/
theorem negInf_eq : negInf = ⊥ := by simp [negInf, Ideal.ofBits, Ideal.ieee]

/-- The word of 0 is 0. -/
theorem zero_eq : zero = 0 := by simp [zero, Ideal.ofBits, Ideal.ieee]

/-- The row maximum of real scores is a real. -/
theorem rowmax_real (S : Fin 2048 → ℝ) : ∃ m : ℝ, rowmax (fun j => (S j : EReal)) = (m : EReal) := by
  have hbot : (⊥ : EReal) < rowmax (fun j => (S j : EReal)) := by
    unfold rowmax
    rw [Finset.lt_fold_max]
    exact Or.inr ⟨0, Finset.mem_univ _, EReal.bot_lt_coe _⟩
  have htop : rowmax (fun j => (S j : EReal)) < ⊤ := by
    unfold rowmax
    rw [Finset.fold_max_lt]
    refine ⟨?_, fun x _ => EReal.coe_lt_top _⟩
    rw [negInf_eq]; exact bot_lt_top
  exact ⟨(rowmax (fun j => (S j : EReal))).toReal, (EReal.coe_toReal htop.ne hbot.ne').symm⟩

/-- The core of the comparison, for one (batch, head, query row, lane): with real scores S and real values v the
    quotient (Σ_j p_j·v_j)/Σp and the sum Σ_j (p_j/(0 + Σp))·v_j agree, p_j = exp(S_j − max S). -/
theorem attn_core (S v : Fin 2048 → ℝ) :
    Ideal.div (∑ j, Ideal.exp ((S j : EReal) - rowmax (fun j => (S j : EReal))) * (v j : EReal))
        (∑ j, Ideal.exp ((S j : EReal) - rowmax (fun j => (S j : EReal))))
      = ∑ j, Ideal.div (Ideal.exp ((S j : EReal) - max negInf (rowmax (fun j => (S j : EReal)))))
          (zero + ∑ j', Ideal.exp ((S j' : EReal) - max negInf (rowmax (fun j => (S j : EReal))))) * (v j : EReal) := by
  obtain ⟨m, hm⟩ := rowmax_real S
  rw [hm, negInf_eq, zero_eq, max_eq_right bot_le, zero_add]
  have hexp : ∀ j, Ideal.exp ((S j : EReal) - (m : EReal)) = ((Real.exp (S j - m) : ℝ) : EReal) := fun j => by
    rw [← EReal.coe_sub, Ideal.exp_coe]
  simp only [hexp]
  have hL : (0 : ℝ) < ∑ j : Fin 2048, Real.exp (S j - m) :=
    Finset.sum_pos (fun j _ => Real.exp_pos _) Finset.univ_nonempty
  have hsum : (∑ j : Fin 2048, ((Real.exp (S j - m) : ℝ) : EReal)) = ((∑ j : Fin 2048, Real.exp (S j - m) : ℝ) : EReal) :=
    (coe_sum _ _).symm
  rw [hsum]
  simp only [Ideal.div_coe hL.ne', ← EReal.coe_mul]
  rw [← coe_sum, ← coe_sum, ← EReal.coe_mul, Finset.sum_mul]
  exact congrArg _ (Finset.sum_congr rfl fun j _ => by ring)

/-- The score with the scale applied to the finished sum, on real queries and keys, is a real. -/
theorem scoreK_real (q k : Fin 4 → Fin 16 → Fin 2048 → Fin 64 → ℝ) (b : Fin 4) (h : Fin 16) (i j : Fin 2048) :
    scoreK (fun b h n d => (q b h n d : EReal)) (fun b h n d => (k b h n d : EReal)) b h i j
      = (((∑ d : Fin 64, q b h i d * k b h j d) * 0.125 : ℝ) : EReal) := by
  simp only [scoreK, scale_eq, ← EReal.coe_mul]
  rw [← coe_sum, ← EReal.coe_mul]

/-- The score with the scale applied to each query entry is the same real: the scale commutes out of the sum. -/
theorem scoreR_real (q k : Fin 4 → Fin 16 → Fin 2048 → Fin 64 → ℝ) (b : Fin 4) (h : Fin 16) (i j : Fin 2048) :
    scoreR (fun b h n d => (q b h n d : EReal)) (fun b h n d => (k b h n d : EReal)) b h i j
      = (((∑ d : Fin 64, q b h i d * k b h j d) * 0.125 : ℝ) : EReal) := by
  simp only [scoreR, scale_eq, ← EReal.coe_mul]
  rw [← coe_sum, Finset.sum_mul]
  exact congrArg _ (Finset.sum_congr rfl fun d _ => by ring)

/-- On real queries, keys and values the two spellings of one head's output agree entry by entry. -/
theorem attnK_eq_attnR (q k v : Fin 4 → Fin 16 → Fin 2048 → Fin 64 → ℝ) (b : Fin 4) (h : Fin 16) (i : Fin 2048) (d : Fin 64) :
    attnK (fun b h n d => (q b h n d : EReal)) (fun b h n d => (k b h n d : EReal)) (fun b h n d => (v b h n d : EReal)) b h i d
      = attnR (fun b h n d => (q b h n d : EReal)) (fun b h n d => (k b h n d : EReal)) (fun b h n d => (v b h n d : EReal)) b h i d := by
  have hK : scoreK (fun b h n d => (q b h n d : EReal)) (fun b h n d => (k b h n d : EReal)) b h i
      = fun j => (((∑ d : Fin 64, q b h i d * k b h j d) * 0.125 : ℝ) : EReal) :=
    funext fun j => scoreK_real q k b h i j
  have hR : scoreR (fun b h n d => (q b h n d : EReal)) (fun b h n d => (k b h n d : EReal)) b h i
      = fun j => (((∑ d : Fin 64, q b h i d * k b h j d) * 0.125 : ℝ) : EReal) :=
    funext fun j => scoreR_real q k b h i j
  simp only [attnK, attnR, weightK, weightR]
  rw [hK, hR]
  exact attn_core (fun j => (∑ d : Fin 64, q b h i d * k b h j d) * 0.125) (fun j => v b h j d)

/-- A projection of real inputs is real: a finite sum of products of reals. -/
theorem proj_real (x : Fin 4 → Fin 2048 → Fin 1024 → ℝ) (w : Fin 3072 → Fin 1024 → ℝ) (s : Fin 3) :
    proj (fun b n c => (x b n c : EReal)) (fun o c => (w o c : EReal)) s
      = fun b h n d => ((∑ c : Fin 1024, x b n c * w (wrow s h d) c : ℝ) : EReal) := by
  funext b h n d
  simp only [proj, ← EReal.coe_mul]
  rw [← coe_sum]

/-- The two spellings of the attention output agree when every entry of x and of w_qkv is a real. -/
theorem outK_eq_outR (X : A3 4 2048 1024) (Wq : Fin 3072 → Fin 1024 → EReal) (Wp : Fin 1024 → Fin 1024 → EReal)
    (Bp : Fin 1024 → EReal)
    (hX : ∀ b n c, ∃ r : ℝ, X b n c = (r : EReal)) (hWq : ∀ o c, ∃ r : ℝ, Wq o c = (r : EReal)) :
    outK X Wq Wp Bp = outR X Wq Wp Bp := by
  choose x hx using hX
  choose w hw using hWq
  have hXe : X = fun b n c => (x b n c : EReal) := by funext b n c; exact hx b n c
  have hWe : Wq = fun o c => (w o c : EReal) := by funext o c; exact hw o c
  rw [hXe, hWe]
  funext b n o
  simp only [outK, outR, proj_real]
  refine congrArg (fun t => t + Bp o) (Finset.sum_congr rfl fun c _ => ?_)
  rw [attnK_eq_attnR]

end Cert.Attn

end
-- ==== Proof.Finite.lean ====
/-
  From the precondition to the inputs being real.

  The precondition is the conjunction, over the four argument arrays, of "every entry a satisfies |a| < +∞", each
  conjunct an and-reduction over all axes of the entrywise comparison.  A conjunction that is 1 has every conjunct 1,
  an and-reduction over all axes that is 1 has every entry 1, and an extended real a with max(a, −a) < +∞ is neither
  −∞ nor +∞, so it is a real.  Only the first two arrays are needed.
-/
import proofs.«124630_j25434796327784_2_alg».proof.Defs
import proofs.«124630_j25434796327784_2_alg».proof.Proof.Gen.Pre_finite_inputs
import Idealize.ShloMosaic.Lib.ReduceAll
import Idealize.ShloMosaic.Lib.ValueIdx

noncomputable section

namespace Cert.KernelIdeal.Fin

open Idealize.ShloMosaic Idealize.SL.Sem

/-- The rank-0 shape has one index. -/
instance : Subsingleton Cert.Pre_finite_inputs.S_.Idx := ⟨fun a b => funext fun d => d.elim0⟩

/-- An extended real whose absolute value max(a, −a) compares below the word of +∞ is a real. -/
theorem real_of_abs_lt (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- Under the precondition every entry of the first two argument arrays is a real. -/
theorem finite_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread _ _).loc Cert.KernelIdeal.main_arg0) i = (r : EReal)) ∧
    (∀ i, ∃ r : ℝ, m ((c.tc : Thread _ _).loc Cert.KernelIdeal.main_arg1) i = (r : EReal)) := by
  have h0 := congrFun (h c) ValueIdx.ix0
  dsimp only [Cert.Pre_finite_inputs.fn, Cert.Pre_finite_inputs.fn_part1] at h0
  obtain ⟨h012, -⟩ := IntOp.andi_eq_one.1 h0
  obtain ⟨h01, -⟩ := IntOp.andi_eq_one.1 h012
  obtain ⟨hx, hw⟩ := IntOp.andi_eq_one.1 h01
  exact ⟨fun i => real_of_abs_lt _ (Host.reduce_andi_all _ _ _ _ _ hx i),
    fun i => real_of_abs_lt _ (Host.reduce_andi_all _ _ _ _ _ hw i)⟩

end Cert.KernelIdeal.Fin

end
-- ==== Proof.Claims.lean ====
/-
  The five claims. Both programs compute multi-head self-attention of x with the projections w_qkv, w_proj and the bias
  b_proj. At the extended reals the kernel's result is the specification's first spelling (scale after the score, divide
  after the product with the values) of the launch arrays, and the reference's result is its second spelling (scale the
  query, divide before). Under the precondition every entry of x and w_qkv is a real, so the projections, scores,
  maxima, weights and their positive sums are reals, and the two spellings are one function.
-/
import proofs.«124630_j25434796327784_2_alg».proof.Defs
import proofs.«124630_j25434796327784_2_alg».proof.Proof.Gen.Kernel.Frame
import proofs.«124630_j25434796327784_2_alg».proof.Proof.Gen.KernelIdeal.Frame
import proofs.«124630_j25434796327784_2_alg».proof.Proof.Gen.ReferenceIdeal.Run
import proofs.«124630_j25434796327784_2_alg».proof.Proof.Gen.ReferenceIdeal.Read
import proofs.«124630_j25434796327784_2_alg».proof.Proof.Gen.Pre_finite_inputs
import proofs.«124630_j25434796327784_2_alg».proof.Proof.KValue
import proofs.«124630_j25434796327784_2_alg».proof.Proof.RefValue
import proofs.«124630_j25434796327784_2_alg».proof.Proof.Algebra
import proofs.«124630_j25434796327784_2_alg».proof.Proof.Finite

set_option maxRecDepth 16384

noncomputable section

namespace Cert.Proof.AttnClaims

open Idealize.ShloMosaic Idealize.ShloMosaic.TcCoe Idealize.ShloMosaic.ValueIdx Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both runs end with the same result array. -/
theorem algebraic : Cert.algebraic_KernelIdeal_ReferenceIdeal := by
  intro m ρ m' ρ' hpre hagree
  refine ⟨fun c => Cert.KernelIdeal.AttnValue.result m c, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW⟩ := Cert.KernelIdeal.Fin.finite_of_pre m hpre c
  rw [Cert.ReferenceIdeal.Read.val_main_v29_eq, (hagree c).1, (hagree c).2.1, (hagree c).2.2.1, (hagree c).2.2.2]
  funext y
  refine (congrArg _ (eq_ix3 y)).trans ?_
  refine (Cert.ReferenceIdeal.RefValue.ref_eq _ _ _ _ (y 0) (y 1) (y 2)).trans ?_
  exact (congrFun (congrFun (congrFun (Cert.Attn.outK_eq_outR _ _ _ _ (fun b n cc => hX (ix3 b n cc)) (fun o cc => hW (ix2 o cc))) (y 0)) (y 1)) (y 2)).symm

end Cert.Proof.AttnClaims

end
-- ==== Proof.lean ====
/-
  The certificate: the kernel and the reference are multi-head self-attention (16 heads of width 64 over
  x : [4, 2048, 1024]) written two ways, and under finite inputs the two ways agree on the extended reals. The claims
  are proved in Proof/Claims.lean; the programs' stated facts are the generated instances.
-/
import proofs.«124630_j25434796327784_2_alg».proof.Defs
import proofs.«124630_j25434796327784_2_alg».proof.Proof.Gen.Kernel
import proofs.«124630_j25434796327784_2_alg».proof.Proof.Gen.Kernel.Skeleton
import proofs.«124630_j25434796327784_2_alg».proof.Proof.Gen.Kernel.Launch
import proofs.«124630_j25434796327784_2_alg».proof.Proof.Gen.Kernel.Points
import proofs.«124630_j25434796327784_2_alg».proof.Proof.Gen.Kernel.Frame
import proofs.«124630_j25434796327784_2_alg».proof.Proof.Gen.KernelIdeal
import proofs.«124630_j25434796327784_2_alg».proof.Proof.Gen.KernelIdeal.Skeleton
import proofs.«124630_j25434796327784_2_alg».proof.Proof.Gen.KernelIdeal.Launch
import proofs.«124630_j25434796327784_2_alg».proof.Proof.Gen.KernelIdeal.Points
import proofs.«124630_j25434796327784_2_alg».proof.Proof.Gen.KernelIdeal.Frame
import proofs.«124630_j25434796327784_2_alg».proof.Proof.Gen.ReferenceIdeal
import proofs.«124630_j25434796327784_2_alg».proof.Proof.Gen.ReferenceIdeal.Run
import proofs.«124630_j25434796327784_2_alg».proof.Proof.Gen.ReferenceIdeal.Read
import proofs.«124630_j25434796327784_2_alg».proof.Proof.Gen.Pre_finite_inputs
import proofs.«124630_j25434796327784_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    AttnClaims.frame_k, AttnClaims.frame_ki, AttnClaims.frame_ri, AttnClaims.preserves, AttnClaims.algebraic⟩

end Cert.Proof

end
